-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048 : Shape := ⟨2, ![128, 2048]⟩
abbrev S128x1024 : Shape := ⟨2, ![128, 1024]⟩
abbrev S256x2048 : Shape := ⟨2, ![256, 2048]⟩
abbrev S256 : Shape := ⟨1, ![256]⟩
abbrev S256x1024 : Shape := ⟨2, ![256, 1024]⟩
abbrev S1024x65536 : Shape := ⟨2, ![1024, 65536]⟩
abbrev S1024 : Shape := ⟨1, ![1024]⟩
abbrev S_ : Shape := ⟨0, ![]⟩

class Facts : Prop where
  bcast_S_S128x2048 : S_.BroadcastsInDim S128x2048 (![] : Fin 0 → Fin S128x2048.rank)
  reducesTo_S128x2048_S_d0_1 : S128x2048.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S256x2048 : S_.BroadcastsInDim S256x2048 (![] : Fin 0 → Fin S256x2048.rank)
  reducesTo_S256x2048_S_d0_1 : S256x2048.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_
  bcast_S_S1024x65536 : S_.BroadcastsInDim S1024x65536 (![] : Fin 0 → Fin S1024x65536.rank)
  reducesTo_S1024x65536_S_d0_1 : S1024x65536.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S256x1024 .f32) (main_arg5 : FVec F S256 .f32) (main_arg6 : FVec F S1024x65536 .f32) (main_arg7 : FVec F S1024 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S1024x65536 .f32 := Host.absf main_arg6
  let main_cst_10 : FVec F S_ .f32 := constant S_ .f32 0x7F800000#32
  let main_v30 : FVec F S1024x65536 .f32 := broadcastInDim S1024x65536 ![] bcast_S_S1024x65536 main_cst_10
  let main_v31 : IVec S1024x65536 1 := cmpf .olt main_v29 main_v30
  let main_c_11 : IVec S_ 1 := constantI S_ 1 1#1
  let main_v32 : IVec S_ 1 := (fun x v => Host.reduce IntOp.andi x v reducesTo_S1024x65536_S_d0_1 h_S_) main_v31 main_c_11
  let main_v33 : IVec S_ 1 := andi main_v28 main_v32
  fn_part2 (F := F) main_arg7 main_v33

def fn {F : FTy → Type} [FloatOps F] (main_arg0 : FVec F S128x2048 .f32) (main_arg1 : FVec F S128x1024 .f32) (main_arg2 : FVec F S256x2048 .f32) (main_arg3 : FVec F S256 .f32) (main_arg4 : FVec F S256x1024 .f32) (main_arg5 : FVec F S256 .f32) (main_arg6 : FVec F S1024x65536 .f32) (main_arg7 : FVec F S1024 .f32) : IVec S_ 1 :=
  let main_v0 : FVec F S128x2048 .f32 := Host.absf main_arg0
  let main_cst : FVec F S_ .f32 := constant S_ .f32 0x7F800000#32
  let main_v1 : FVec F S128x2048 .f32 := broadcastInDim S128x2048 ![] bcast_S_S128x2048 main_cst
  let main_v2 : IVec S128x2048 1 := cmpf .olt main_v0 main_v1
  let main_c : IVec S_ 1 := constantI S_ 1 1#1
  let main_v3 : IVec S_ 1 := (fun x v => Host.reduce IntOp.andi x v reducesTo_S128x2048_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S256x2048 .f32 := Host.absf main_arg2
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S128x2048 : Shape := ⟨2, ![128, 2048]⟩
abbrev S128x1024 : Shape := ⟨2, ![128, 1024]⟩
abbrev S256x2048 : Shape := ⟨2, ![256, 2048]⟩
abbrev S256 : Shape := ⟨1, ![256]⟩
abbrev S256x1024 : Shape := ⟨2, ![256, 1024]⟩
abbrev S1024x65536 : Shape := ⟨2, ![1024, 65536]⟩
abbrev S1024 : Shape := ⟨1, ![1024]⟩
abbrev S1x256 : Shape := ⟨2, ![1, 256]⟩
abbrev S1x1024 : Shape := ⟨2, ![1, 1024]⟩
abbrev S128x256 : Shape := ⟨2, ![128, 256]⟩
abbrev S128x32768 : Shape := ⟨2, ![128, 32768]⟩
abbrev S1x128 : Shape := ⟨2, ![1, 128]⟩
abbrev S128x128 : Shape := ⟨2, ![128, 128]⟩
abbrev S128x128x1 : Shape := ⟨3, ![128, 128, 1]⟩
abbrev S128x1x256 : Shape := ⟨3, ![128, 1, 256]⟩
abbrev S128x128x256 : Shape := ⟨3, ![128, 128, 256]⟩

abbrev nBuf : Space → Nat
  | .hbm => 14
  | .vmem => 17
  | .smem => 0
  | _ => 0

abbrev bufTy : (tb : Table) → Fin (tcTables nBuf tb) → BufTy
  | .hbm, ⟨0, _⟩ => ⟨S128x2048, .f32⟩
  | .hbm, ⟨1, _⟩ => ⟨S128x1024, .f32⟩
  | .hbm, ⟨2, _⟩ => ⟨S256x2048, .f32⟩
  | .hbm, ⟨3, _⟩ => ⟨S256, .f32⟩
  | .hbm, ⟨4, _⟩ => ⟨S256x1024, .f32⟩
  | .hbm, ⟨5, _⟩ => ⟨S256, .f32⟩
  | .hbm, ⟨6, _⟩ => ⟨S1024x65536, .f32⟩
  | .hbm, ⟨7, _⟩ => ⟨S1024, .f32⟩
  | .hbm, ⟨8, _⟩ => ⟨S1x256, .f32⟩
  | .hbm, ⟨9, _⟩ => ⟨S1x256, .f32⟩
  | .hbm, ⟨10, _⟩ => ⟨S1x1024, .f32⟩
  | .hbm, ⟨11, _⟩ => ⟨S128x256, .f32⟩
  | .hbm, ⟨12, _⟩ => ⟨S128x256, .f32⟩
  | .hbm, ⟨13, _⟩ => ⟨S128x1024, .f32⟩
  | .local _ .vmem, ⟨0, _⟩ => ⟨S128x2048, .f32⟩
  | .local _ .vmem, ⟨1, _⟩ => ⟨S256x2048, .f32⟩
  | .local _ .vmem, ⟨2, _⟩ => ⟨S1x256, .f32⟩
  | .local _ .vmem, ⟨3, _⟩ => ⟨S128x1024, .f32⟩
  | .local _ .vmem, ⟨4, _⟩ => ⟨S256x1024, .f32⟩
  | .local _ .vmem, ⟨5, _⟩ => ⟨S1x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x32768, .f32⟩
  | .local _ .vmem, ⟨11, _⟩ => ⟨S128x32768, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![8, 2], ![false, false]⟩

def k1_mult1 (i : grid1.Coords) : BitVec 32 :=
  let arg1 : BitVec 32 := BitVec.ofNat 32 (i 1).val
  let c128_i32 : BitVec 32 := 128#32
  let v3 : BitVec 32 := Scalar.muli arg1 c128_i32
  v3
def k1_off1 (i : grid1.Coords) : Fin 2 → Nat :=
  let c0 : Index := 0#32
  let arg1 : BitVec 32 := BitVec.ofNat 32 (i 1).val
  let c128_i32 : BitVec 32 := 128#32
  let v3 : BitVec 32 := Scalar.muli arg1 c128_i32
  let v4 : BitVec 32 := v3
  let v5 : Index := Scalar.indexCast v4
  ![0, v5.toNat]
def k1_cond2 (i : grid1.Coords) : BitVec 1 :=
  let arg1 : BitVec 32 := BitVec.ofNat 32 (i 1).val
  let c1_i32 : BitVec 32 := 1#32
  let v26 : BitVec 1 := Scalar.cmpi .eq arg1 c1_i32
  let v27 : BitVec 32 := Scalar.extui v26
  let c0_i32_9 : BitVec 32 := 0#32
  let v28 : BitVec 1 := Scalar.cmpi .ne v27 c0_i32_9
  v28

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S128x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S128x32768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S256_S1x256 : S256.ShapeCasts S1x256
  shapeCasts_S1024_S1x1024 : S1024.ShapeCasts S1x1024
  inb_S128x2048_S128x2048_0_0 : ∀ a, (![0, 0] : Fin 2 → Nat) a + S128x2048.size a ≤ S128x2048.size a
  h_S128x2048 : 0 < S128x2048.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S128x1024_S128x1024_0_0 : ∀ a, (![0, 0] : Fin 2 → Nat) a + S128x1024.size a ≤ S128x1024.size a
  h_S128x1024 : 0 < S128x1024.numel
  inb_S256x1024_S256x1024_0_0 : ∀ a, (![0, 0] : Fin 2 → Nat) a + S256x1024.size a ≤ S256x1024.size a
  h_S256x1024 : 0 < S256x1024.numel
  inb_S128x256_S128x256_0_0 : ∀ a, (![0, 0] : Fin 2 → Nat) a + S128x256.size a ≤ S128x256.size a
  h_S128x256 : 0 < S128x256.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x256_S128x256 : S128x256.ShapeCasts S128x256
  shapeCasts_S128x128_S128x128x1 : S128x128.ShapeCasts S128x128x1
  shapeCasts_S128x256_S128x1x256 : S128x256.ShapeCasts S128x1x256
  broadcasts_S128x128x1_S128x128x256 : S128x128x1.Broadcasts S128x128x256
  broadcasts_S128x1x256_S128x128x256 : S128x1x256.Broadcasts S128x128x256
  shapeCasts_S128x128x256_S128x32768 : S128x128x256.ShapeCasts S128x32768
  inb_S128x32768_S128x32768_0_0 : ∀ a, (![0, 0] : Fin 2 → Nat) a + S128x32768.size a ≤ S128x32768.size a
  h_S128x32768 : 0 < S128x32768.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  dot_S128x2048_S256x2048_S128x256_1_1_0_0_n_n_wf : DotDims.WF S128x2048 S256x2048 S128x256 [1] [1] [0] [0] [] []
  dot_S128x1024_S256x1024_S128x256_1_1_0_0_n_n_wf : DotDims.WF S128x1024 S256x1024 S128x256 [1] [1] [0] [0] [] []
  dot_S128x32768_S128x32768_S128x128_1_1_0_0_n_n_wf : DotDims.WF S128x32768 S128x32768 S128x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S128x2048.size a
  hwx0_0 : ∀ i : grid0.Coords, EltTy.bits .f32 = 32 ∨ (Rect.block (s := S128x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .f32 = 32 ∨ (Rect.block (s := S256x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x1024.size a
  hwx0_3 : ∀ i : grid0.Coords, EltTy.bits .f32 = 32 ∨ (Rect.block (s := S128x1024) S128x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .f32 = 32 ∨ (Rect.block (s := S256x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .f32 = 32 ∨ (Rect.block (s := S128x256) S128x256.size (cc0_transform_7 i) (hinb0_7 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S128x128.size a ≤ S128x256.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x256.size a ≤ S128x256.size a
  hwx1_0 : ∀ i : grid1.Coords, EltTy.bits .f32 = 32 ∨ (Rect.block (s := S128x256) S128x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x32768.size a ≤ S1024x65536.size a
  hwx1_2 : ∀ i : grid1.Coords, EltTy.bits .f32 = 32 ∨ (Rect.block (s := S1024x65536) S128x32768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x1024.size a
  hwx1_3 : ∀ i : grid1.Coords, EltTy.bits .f32 = 32 ∨ (Rect.block (s := S1x1024) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x1024.size a
  hwx1_4 : ∀ i : grid1.Coords, EltTy.bits .f32 = 32 ∨ (Rect.block (s := S128x1024) S128x128.size (cc1_transform_4 i) (hinb1_4 i)).WholeWords (EltTy.packing .f32)

variable [Facts₀]

def dot_S128x2048_S256x2048_S128x256_1_1_0_0_n_n : DotDims S128x2048 S256x2048 S128x256 where
  lhsContracting := [1]
  rhsContracting := [1]
  lhsNonContracting := [0]
  rhsNonContracting := [0]
  lhsBatch := []
  rhsBatch := []
  wf := dot_S128x2048_S256x2048_S128x256_1_1_0_0_n_n_wf
def dot_S128x1024_S256x1024_S128x256_1_1_0_0_n_n : DotDims S128x1024 S256x1024 S128x256 where
  lhsContracting := [1]
  rhsContracting := [1]
  lhsNonContracting := [0]
  rhsNonContracting := [0]
  lhsBatch := []
  rhsBatch := []
  wf := dot_S128x1024_S256x1024_S128x256_1_1_0_0_n_n_wf
def dot_S128x32768_S128x32768_S128x128_1_1_0_0_n_n : DotDims S128x32768 S128x32768 S128x128 where
  lhsContracting := [1]
  rhsContracting := [1]
  lhsNonContracting := [0]
  rhsNonContracting := [0]
  lhsBatch := []
  rhsBatch := []
  wf := dot_S128x32768_S128x32768_S128x128_1_1_0_0_n_n_wf

abbrev win0_0 : Pipeline.Window sig grid0 :=
  Pipeline.Window.ofSpec (Memref.whole main_arg0) S128x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S128x256.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S128x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v3_0) S128x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x32768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S128x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S128x2048 : Shape := ⟨2, ![128, 2048]⟩
abbrev S128x1024 : Shape := ⟨2, ![128, 1024]⟩
abbrev S256x2048 : Shape := ⟨2, ![256, 2048]⟩
abbrev S256 : Shape := ⟨1, ![256]⟩
abbrev S256x1024 : Shape := ⟨2, ![256, 1024]⟩
abbrev S1024x65536 : Shape := ⟨2, ![1024, 65536]⟩
abbrev S1024 : Shape := ⟨1, ![1024]⟩
abbrev S2048x256 : Shape := ⟨2, ![2048, 256]⟩
abbrev S128x256 : Shape := ⟨2, ![128, 256]⟩
abbrev S1x256 : Shape := ⟨2, ![1, 256]⟩
abbrev S1024x256 : Shape := ⟨2, ![1024, 256]⟩
abbrev S128x256x1 : Shape := ⟨3, ![128, 256, 1]⟩
abbrev S128x1x256 : Shape := ⟨3, ![128, 1, 256]⟩
abbrev S128x256x256 : Shape := ⟨3, ![128, 256, 256]⟩
abbrev S128x65536 : Shape := ⟨2, ![128, 65536]⟩
abbrev S65536x1024 : Shape := ⟨2, ![65536, 1024]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x1024, .f32⟩
  | .hbm, ⟨2, _⟩ => ⟨S256x2048, .f32⟩
  | .hbm, ⟨3, _⟩ => ⟨S256, .f32⟩
  | .hbm, ⟨4, _⟩ => ⟨S256x1024, .f32⟩
  | .hbm, ⟨5, _⟩ => ⟨S256, .f32⟩
  | .hbm, ⟨6, _⟩ => ⟨S1024x65536, .f32⟩
  | .hbm, ⟨7, _⟩ => ⟨S1024, .f32⟩
  | .hbm, ⟨8, _⟩ => ⟨S2048x256, .f32⟩
  | .hbm, ⟨9, _⟩ => ⟨S128x256, .f32⟩
  | .hbm, ⟨10, _⟩ => ⟨S1x256, .f32⟩
  | .hbm, ⟨11, _⟩ => ⟨S128x256, .f32⟩
  | .hbm, ⟨12, _⟩ => ⟨S128x256, .f32⟩
  | .hbm, ⟨13, _⟩ => ⟨S1024x256, .f32⟩
  | .hbm, ⟨14, _⟩ => ⟨S128x256, .f32⟩
  | .hbm, ⟨15, _⟩ => ⟨S1x256, .f32⟩
  | .hbm, ⟨16, _⟩ => ⟨S128x256, .f32⟩
  | .hbm, ⟨17, _⟩ => ⟨S128x256, .f32⟩
  | .hbm, ⟨18, _⟩ => ⟨S128x256x1, .f32⟩
  | .hbm, ⟨19, _⟩ => ⟨S128x1x256, .f32⟩
  | .hbm, ⟨20, _⟩ => ⟨S128x256x256, .f32⟩
  | .hbm, ⟨21, _⟩ => ⟨S128x256x256, .f32⟩
  | .hbm, ⟨22, _⟩ => ⟨S128x256x256, .f32⟩
  | .hbm, ⟨23, _⟩ => ⟨S128x65536, .f32⟩
  | .hbm, ⟨24, _⟩ => ⟨S65536x1024, .f32⟩
  | .hbm, ⟨25, _⟩ => ⟨S128x1024, .f32⟩
  | .hbm, ⟨26, _⟩ => ⟨S1x1024, .f32⟩
  | .hbm, ⟨27, _⟩ => ⟨S128x1024, .f32⟩
  | .hbm, ⟨28, _⟩ => ⟨S128x1024, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  transposes_S256x2048_S2048x256_1_0 : S256x2048.Transposes [1, 0] S2048x256
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  transposes_S256x1024_S1024x256_1_0 : S256x1024.Transposes [1, 0] S1024x256
  bcast_S128x256_S128x256x1_0_1 : S128x256.BroadcastsInDim S128x256x1 (![0, 1] : Fin 2 → Fin S128x256x1.rank)
  bcast_S128x256_S128x1x256_0_2 : S128x256.BroadcastsInDim S128x1x256 (![0, 2] : Fin 2 → Fin S128x1x256.rank)
  bcast_S128x256x1_S128x256x256_0_1_2 : S128x256x1.BroadcastsInDim S128x256x256 (![0, 1, 2] : Fin 3 → Fin S128x256x256.rank)
  bcast_S128x1x256_S128x256x256_0_1_2 : S128x1x256.BroadcastsInDim S128x256x256 (![0, 1, 2] : Fin 3 → Fin S128x256x256.rank)
  shapeCasts_S128x256x256_S128x65536 : S128x256x256.ShapeCasts S128x65536
  transposes_S1024x65536_S65536x1024_1_0 : S1024x65536.Transposes [1, 0] S65536x1024
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  dot_S128x2048_S2048x256_S128x256_1_0_0_1_n_n_wf : DotDims.WF S128x2048 S2048x256 S128x256 [1] [0] [0] [1] [] []
  dot_S128x1024_S1024x256_S128x256_1_0_0_1_n_n_wf : DotDims.WF S128x1024 S1024x256 S128x256 [1] [0] [0] [1] [] []
  dot_S128x65536_S65536x1024_S128x1024_1_0_0_1_n_n_wf : DotDims.WF S128x65536 S65536x1024 S128x1024 [1] [0] [0] [1] [] []

variable [Facts₀]

def dot_S128x2048_S2048x256_S128x256_1_0_0_1_n_n : DotDims S128x2048 S2048x256 S128x256 where
  lhsContracting := [1]
  rhsContracting := [0]
  lhsNonContracting := [0]
  rhsNonContracting := [1]
  lhsBatch := []
  rhsBatch := []
  wf := dot_S128x2048_S2048x256_S128x256_1_0_0_1_n_n_wf
def dot_S128x1024_S1024x256_S128x256_1_0_0_1_n_n : DotDims S128x1024 S1024x256 S128x256 where
  lhsContracting := [1]
  rhsContracting := [0]
  lhsNonContracting := [0]
  rhsNonContracting := [1]
  lhsBatch := []
  rhsBatch := []
  wf := dot_S128x1024_S1024x256_S128x256_1_0_0_1_n_n_wf
def dot_S128x65536_S65536x1024_S128x1024_1_0_0_1_n_n : DotDims S128x65536 S65536x1024 S128x1024 where
  lhsContracting := [1]
  rhsContracting := [0]
  lhsNonContracting := [0]
  rhsNonContracting := [1]
  lhsBatch := []
  rhsBatch := []
  wf := dot_S128x65536_S65536x1024_S128x1024_1_0_0_1_n_n_wf

class Facts : Prop extends Facts₀ where

variable [Facts]
-- ==== Proof.K.Proj.lean ====
/-
  The first region: the two projections. One grid point; six input windows, each the whole of its array
  (x1, W1, the bias row b1 as a 1 × 256 array, x2, W2, the bias row b2), and two output windows, each the whole of a
  128 × 256 array. The body loads the six blocks whole and stores into each output, whole, one value: the product of
  an input block with the transpose of a weight block plus the broadcast bias row. This module states what the body
  leaves in the two outputs as functions of the six blocks, runs the body once, and packs the result as the region's
  proof data at ANY contents `V` of the core's buffers when the region is entered.
-/
import proofs.«105507_j35759897706654_1_alg».proof.Proof.Gen.Kernel.Launch
import proofs.«105507_j35759897706654_1_alg».proof.Proof.Gen.Kernel.Skeleton
import proofs.«105507_j35759897706654_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rX1 : Rect S128x2048 := Rect.unit (s := S128x2048) ![0, 0] S128x2048.size inb_S128x2048_S128x2048_0_0
abbrev rW1 : Rect S256x2048 := Rect.unit (s := S256x2048) ![0, 0] S256x2048.size inb_S256x2048_S256x2048_0_0
abbrev rB : Rect S1x256 := Rect.unit (s := S1x256) ![0, 0] S1x256.size inb_S1x256_S1x256_0_0
abbrev rX2 : Rect S128x1024 := Rect.unit (s := S128x1024) ![0, 0] S128x1024.size inb_S128x1024_S128x1024_0_0
abbrev rW2 : Rect S256x1024 := Rect.unit (s := S256x1024) ![0, 0] S256x1024.size inb_S256x1024_S256x1024_0_0
abbrev rH : Rect S128x256 := Rect.unit (s := S128x256) ![0, 0] S128x256.size inb_S128x256_S128x256_0_0

/-- What the body leaves in the first output's buffer: its one store, of the first projection of the blocks. -/
def outH1 (x0 : Vec F S128x2048 .f32) (x1 : Vec F S256x2048 .f32) (x2 : Vec F S1x256 .f32) : Vec F S128x256 .f32 :=
  View.canon [⟨rH, k0_pay1 (View.ld x0 rX1) (View.ld x1 rW1) (View.ld x2 rB)⟩]
/-- What the body leaves in the second output's buffer: its one store, of the second projection of the blocks. -/
def outH2 (x3 : Vec F S128x1024 .f32) (x4 : Vec F S256x1024 .f32) (x5 : Vec F S1x256 .f32) : Vec F S128x256 .f32 :=
  View.canon [⟨rH, k0_pay2 (View.ld x3 rX2) (View.ld x4 rW2) (View.ld x5 rB)⟩]

/-- One whole-block store covers the block. -/
theorem coverH (p0 : Vec F S128x256 .f32) (y : S128x256.Idx) :
    ∃ pc ∈ ([⟨rH, p0⟩] : List (View.Piece (Elt F) S128x256 .f32)), y ∈ pc.1.set :=
  View.cover_of_tiled [⟨rH, p0⟩] S128x256.size (by rfl) y

set_option maxHeartbeats 4000000 in
/-- The body on whole staging memrefs, the six inputs at read contents and the two outputs at anything, runs to the
    continuation holding the inputs as they were and the outputs at `outH1`, `outH2` of the inputs. -/
theorem sound_kernel0 (c : Dev nD) (E : Set ℕ) (i : grid0.Coords)
    (arg1 : Memref sig .tc .vmem S128x2048 .f32) (harg1 : arg1.IsWhole) (arg2 : Memref sig .tc .vmem S256x2048 .f32) (harg2 : arg2.IsWhole)
    (arg3 : Memref sig .tc .vmem S1x256 .f32) (harg3 : arg3.IsWhole) (arg4 : Memref sig .tc .vmem S128x1024 .f32) (harg4 : arg4.IsWhole)
    (arg5 : Memref sig .tc .vmem S256x1024 .f32) (harg5 : arg5.IsWhole) (arg6 : Memref sig .tc .vmem S1x256 .f32) (harg6 : arg6.IsWhole)
    (arg7 : Memref sig .tc .vmem S128x256 .f32) (harg7 : arg7.IsWhole) (arg8 : Memref sig .tc .vmem S128x256 .f32) (harg8 : arg8.IsWhole)
    (x0 : Vec F S128x2048 .f32) (x1 : Vec F S256x2048 .f32) (x2 : Vec F S1x256 .f32)
    (x3 : Vec F S128x1024 .f32) (x4 : Vec F S256x1024 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH1 x0 x1 x2) ∗ owns (c : Thread nD τ) arg8 fullShare (outH2 x3 x4 x5)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverH _)
  iexists _; isplitr
  swap; · iexact H7
  ipureintro
  exact View.read_writes_eq_canon _ _ _ (coverH _)

/-! ## The region's proof data -/

/-- The proof data of the first region on core `c`: the arrays as the region finds them; after the body each input's
    buffer at its block and each output's at its projection of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => outH1 (iblk0 V c 0 t) (iblk0 V c 1 t) (iblk0 V c 2 t)
    | ⟨7, _⟩ => outH2 (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = outH1 (iblk0 V c 0 t) (iblk0 V c 1 t) (iblk0 V c 2 t) := by dsimp only [dat0]
theorem after0_7 (c : Dev nD) (t : Fin cfg0.N) : (dat0 V c).after 7 t = outH2 (iblk0 V c 3 t) (iblk0 V c 4 t) (iblk0 V c 5 t) := by dsimp only [dat0]

/-- Each input's staging buffer holds its block when the body runs: an input window the body only reads. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at the region's point: the inputs' memrefs hold their blocks, so the run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at the region's point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.AccDefs.lean ====
/-
  The second region, what its two kinds of grid point share. The grid is 8 × 2: for each of 8 tiles of 128 output
  columns, two steps over the halves of the 65536 flattened columns. The body keeps a 128 × 128 accumulator in a
  scratch buffer across the two steps of a tile: at the first step (second grid coordinate 0) it zeroes the
  accumulator, at every step it adds the step's product into it, and at the last step (second coordinate 1) it
  stores accumulator plus bias row into the output block. Here: the two branch conditions in closed form over the
  grid, where the output window is idle, the staging and scratch memrefs, and the region's class invariant with the
  scratch singled out.
-/
import proofs.«105507_j35759897706654_1_alg».proof.Proof.Gen.Kernel.Launch
import proofs.«105507_j35759897706654_1_alg».proof.Proof.Gen.Kernel.Skeleton
import proofs.«105507_j35759897706654_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional's condition (zero the accumulator), from the grid coordinates. -/
abbrev cond1_0 (i : grid1.Coords) : Prop := (Scalar.cmpi .ne (Scalar.extui (Scalar.cmpi .eq (BitVec.ofNat 32 (i 1).val) 0#32)) 0#32) = 1#1
/-- It holds at the first step of each tile: the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional's condition (store the output block). -/
abbrev cond1_1 (i : grid1.Coords) : Prop := k1_cond2 i = 1#1
/-- It holds at the last step of each tile: the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At a tile's first step the output window is idle (the body stores nothing into it) and not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- At a tile's last step it is live. -/
theorem liveAt1_4_B : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S128x128 .f32 := (Memref.whole cc1_stg4_0 : Memref sig .tc .vmem S128x128 .f32).view
abbrev ms1_0 (t : Fin cfg1.N) : Memref sig .tc .vmem S128x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x32768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev scM1 : Memref sig .tc .vmem S128x128 .f32 := Memref.whole cc1_scratch0
abbrev VS1 : View sig .tc .vmem S128x128 .f32 := scM1.view

/-- A scoped buffer whole at some contents. -/
abbrev anyAt (c : Dev nD) (b : Ref sig .tc) : sProp 𝕄 :=
  iprop(∃ f : Buf (Elt F) ((c : Thread nD τ).loc b), ((c : Thread nD τ).loc b) ↦{fullShare} f)

/-- The first region's eight staging buffers, which this region never touches, each at some contents. -/
abbrev others1 (c : Dev nD) (S : sProp 𝕄) : sProp 𝕄 :=
  iprop(anyAt (F := F) c cc0_stg0_0 ∗ anyAt (F := F) c cc0_stg1_0 ∗ anyAt (F := F) c cc0_stg2_0 ∗ anyAt (F := F) c cc0_stg3_0
    ∗ anyAt (F := F) c cc0_stg4_0 ∗ anyAt (F := F) c cc0_stg5_0 ∗ anyAt (F := F) c cc0_stg6_0 ∗ anyAt (F := F) c cc0_stg7_0 ∗ S)

/-- The region's class invariant with the accumulator as a memref owned at some contents. -/
theorem PhiA1_eq (c : Dev nD) :
    (Pipeline.ΦA spec1 c : sProp 𝕄)
      = iprop(others1 c (iprop(∃ d, owns (c : Thread nD τ) scM1 fullShare d)) ∗ (∃ r, prngReg c r)) := by
  unfold Pipeline.ΦA; rw [scopedRest1_eq]; simp only [scM1, owns_whole]; try rfl

end Cert.Kernel.Fr

end
-- ==== Proof.K.AccRunA.lean ====
/-
  The second region's body at a tile's FIRST step (the first conditional taken, the second not): the accumulator is
  zeroed, the step's product is added into it, the output block is left untouched. The pieces the accumulator ends
  with are found by the run.
-/
import proofs.«105507_j35759897706654_1_alg».proof.Proof.K.AccDefs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four inputs at their contents, the output block at contents handed back untouched, the
    accumulator at anything — the body runs to the continuation holding the inputs and the output as they were and the
    accumulator with its pieces written. -/
noncomputable def kernelRun1_A (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x32768 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (hc0 : cond1_0 i) (hc1 : ¬cond1_1 i)
    (x0 : Vec F S128x256 .f32) (x1 : Vec F S128x256 .f32) (x2 : Vec F S128x32768 .f32) (x3 : Vec F S1x128 .f32) :
    Σ' (L4 : List (View.Piece (Elt F) S128x128 .f32)), { LS0 : List (View.Piece (Elt F) S128x128 .f32) //
      ∀ (xi4 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__bilinear_kernel i arg2 harg2 arg3 harg3 arg4 harg4 arg5 harg5 arg6 harg6 arg7 harg7) K } := by
  refine ⟨[], ?_, fun xi4 E K => ?run⟩
  case run =>
    simp only [cc1__bilinear_kernel_eq_skeleton]; unfold cc1__bilinear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.K.AccRunB.lean ====
/-
  The second region's body at a tile's LAST step (the first conditional not taken, the second taken): the step's
  product is added into the accumulator the first step left, and accumulator plus bias row is stored into the output
  block. The pieces the output block and the accumulator end with are found by the run.
-/
import proofs.«105507_j35759897706654_1_alg».proof.Proof.K.AccDefs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four inputs at their contents, the output block at anything, the accumulator at the
    contents `xs0` the step before left — the body runs to the continuation holding the inputs as they were and the
    output block and the accumulator with their pieces written. -/
noncomputable def kernelRun1_B (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x32768 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x256 .f32) (x1 : Vec F S128x256 .f32) (x2 : Vec F S128x32768 .f32) (x3 : Vec F S1x128 .f32) (xs0 : Vec F S128x128 .f32) :
    Σ' (L4 : List (View.Piece (Elt F) S128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__bilinear_kernel i arg2 harg2 arg3 harg3 arg4 harg4 arg5 harg5 arg6 harg6 arg7 harg7) K } := by
  refine ⟨?_, ?_, fun E K => ?run⟩
  case run =>
    simp only [cc1__bilinear_kernel_eq_skeleton]; unfold cc1__bilinear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Fr

end
-- ==== Proof.K.Acc.lean ====
/-
  The second region as proof data. What the accumulator holds after each grid point is stated tile by tile: after a
  tile's first step, what that step's run leaves (zero plus the first half's product); after its last step, what that
  step's run leaves over the first step's contents. The region's invariant before a point names the accumulator's
  contents after the point before (anything before the first point). The output block's buffer after a last step is
  what that step's run stores (accumulator plus bias); at a first step the window is idle and its buffer untouched.
  All of it at ANY contents `V` of the core's buffers when the region is entered.
-/
import proofs.«105507_j35759897706654_1_alg».proof.Proof.K.AccRunA
import proofs.«105507_j35759897706654_1_alg».proof.Proof.K.AccRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What each kind of step leaves -/

/-- A first step's pieces for the accumulator cover it. -/
theorem scover1_A (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x32768 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (hc0 : cond1_0 i) (hc1 : ¬cond1_1 i)
    (x0 : Vec F S128x256 .f32) (x1 : Vec F S128x256 .f32) (x2 : Vec F S128x32768 .f32) (x3 : Vec F S1x128 .f32) (y : S128x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S128x128.size (by sl_kernel_rfl) y

/-- What a first step leaves in the accumulator: its pieces read back. -/
def sout1_A (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x32768 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (hc0 : cond1_0 i) (hc1 : ¬cond1_1 i)
    (x0 : Vec F S128x256 .f32) (x1 : Vec F S128x256 .f32) (x2 : Vec F S128x32768 .f32) (x3 : Vec F S1x128 .f32) : Vec F S128x128 .f32 :=
  VS1.read (Elt F) (VS1.writes (Elt F) VS1.junk (kernelRun1_A c i arg2 harg2 arg3 harg3 arg4 harg4 arg5 harg5 arg6 harg6 arg7 harg7 hc0 hc1 x0 x1 x2 x3).2.1)

/-- A last step's pieces for the output block cover it. -/
theorem cover1_B_4 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x32768 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x256 .f32) (x1 : Vec F S128x256 .f32) (x2 : Vec F S128x32768 .f32) (x3 : Vec F S1x128 .f32) (xs0 : Vec F S128x128 .f32) (y : S128x128.Idx) :
    ∃ pc ∈ (kernelRun1_B c i arg2 harg2 arg3 harg3 arg4 harg4 arg5 harg5 arg6 harg6 arg7 harg7 hc0 hc1 x0 x1 x2 x3 xs0).1, y ∈ pc.1.set :=
  View.cover_of_tiledL (kernelRun1_B c i arg2 harg2 arg3 harg3 arg4 harg4 arg5 harg5 arg6 harg6 arg7 harg7 hc0 hc1 x0 x1 x2 x3 xs0).1 S128x128.size (by sl_kernel_rfl) y

/-- What a last step leaves in the output block's buffer: its pieces read back. -/
def out1_B_4 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x32768 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x256 .f32) (x1 : Vec F S128x256 .f32) (x2 : Vec F S128x32768 .f32) (x3 : Vec F S1x128 .f32) (xs0 : Vec F S128x128 .f32) : Vec F S128x128 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- A last step's pieces for the accumulator cover it. -/
theorem scover1_B (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x32768 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x256 .f32) (x1 : Vec F S128x256 .f32) (x2 : Vec F S128x32768 .f32) (x3 : Vec F S1x128 .f32) (xs0 : Vec F S128x128 .f32) (y : S128x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S128x128.size (by sl_kernel_rfl) y

/-- What a last step leaves in the accumulator: its pieces read back. -/
def sout1_B (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x32768 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x256 .f32) (x1 : Vec F S128x256 .f32) (x2 : Vec F S128x32768 .f32) (x3 : Vec F S1x128 .f32) (xs0 : Vec F S128x128 .f32) : Vec F S128x128 .f32 :=
  VS1.read (Elt F) (VS1.writes (Elt F) VS1.junk (kernelRun1_B c i arg2 harg2 arg3 harg3 arg4 harg4 arg5 harg5 arg6 harg6 arg7 harg7 hc0 hc1 x0 x1 x2 x3 xs0).2.1)

/-! ## The accumulator and the output block, point by point -/

theorem cA0 (t : Fin cfg1.N) (h : t.val % 2 = 0) : cond1_0 (grid1.coords t) := (hcond1_0 t).mpr h
theorem cA1 (t : Fin cfg1.N) (h : t.val % 2 = 0) : ¬cond1_1 (grid1.coords t) := fun h' => by have := (hcond1_1 t).mp h'; omega
theorem cB0 (t : Fin cfg1.N) (h : t.val % 2 = 1) : ¬cond1_0 (grid1.coords t) := fun h' => by have := (hcond1_0 t).mp h'; omega
theorem cB1 (t : Fin cfg1.N) (h : t.val % 2 = 1) : cond1_1 (grid1.coords t) := (hcond1_1 t).mpr h

/-- The point before an odd point. -/
def prevPt (t : Fin cfg1.N) : Fin cfg1.N := ⟨t.val - 1, Nat.lt_of_le_of_lt (Nat.sub_le _ _) t.isLt⟩
theorem prevPt_even (t : Fin cfg1.N) (h : t.val % 2 = 1) : (prevPt t).val % 2 = 0 := by
  show (t.val - 1) % 2 = 0; omega

/-- The accumulator after a tile's first step `t`. -/
def accA (c : Dev nD) (t : Fin cfg1.N) (h : t.val % 2 = 0) : Vec F S128x128 .f32 :=
  sout1_A c (grid1.coords t) (ms1_0 t) (hs1_0 t) (ms1_1 t) (hs1_1 t) (ms1_2 t) (hs1_2 t) (ms1_3 t) (hs1_3 t) (ms1_4 t) (hs1_4 t) scM1 (Memref.isWhole_whole _) (cA0 t h) (cA1 t h) (iblk1 V c 0 t) (iblk1 V c 1 t) (iblk1 V c 2 t) (iblk1 V c 3 t)

/-- The accumulator after a tile's last step `t`: over what the first step (the point before) left. -/
def accB (c : Dev nD) (t : Fin cfg1.N) (h : t.val % 2 = 1) : Vec F S128x128 .f32 :=
  sout1_B c (grid1.coords t) (ms1_0 t) (hs1_0 t) (ms1_1 t) (hs1_1 t) (ms1_2 t) (hs1_2 t) (ms1_3 t) (hs1_3 t) (ms1_4 t) (hs1_4 t) scM1 (Memref.isWhole_whole _) (cB0 t h) (cB1 t h) (iblk1 V c 0 t) (iblk1 V c 1 t) (iblk1 V c 2 t) (iblk1 V c 3 t) (accA V c (prevPt t) (prevPt_even t h))

/-- The accumulator after point `t`. -/
def accAt (c : Dev nD) (t : Fin cfg1.N) : Vec F S128x128 .f32 :=
  if h : t.val % 2 = 0 then accA V c t h else accB V c t (by omega)

theorem accAt_even (c : Dev nD) (t : Fin cfg1.N) (h : t.val % 2 = 0) : accAt V c t = accA V c t h := dif_pos h
theorem accAt_odd (c : Dev nD) (t : Fin cfg1.N) (h : t.val % 2 = 1) : accAt V c t = accB V c t h := by
  unfold accAt; rw [dif_neg (by omega)]

/-- The output block's buffer after a tile's last step `t`. -/
def outB (c : Dev nD) (t : Fin cfg1.N) (h : t.val % 2 = 1) : Vec F S128x128 .f32 :=
  out1_B_4 c (grid1.coords t) (ms1_0 t) (hs1_0 t) (ms1_1 t) (hs1_1 t) (ms1_2 t) (hs1_2 t) (ms1_3 t) (hs1_3 t) (ms1_4 t) (hs1_4 t) scM1 (Memref.isWhole_whole _) (cB0 t h) (cB1 t h) (iblk1 V c 0 t) (iblk1 V c 1 t) (iblk1 V c 2 t) (iblk1 V c 3 t) (accA V c (prevPt t) (prevPt_even t h))

/-- The output block's buffer after point `t`: at a last step what it stores; at a first step a placeholder nothing
    consults (the window is idle there: neither written back nor read at the next point). -/
def outAt (c : Dev nD) (t : Fin cfg1.N) : Vec F S128x128 .f32 :=
  if h : t.val % 2 = 1 then outB V c t h else VO1_4.read (Elt F) VO1_4.junk

theorem outAt_odd (c : Dev nD) (t : Fin cfg1.N) (h : t.val % 2 = 1) : outAt V c t = outB V c t h := dif_pos h

/-! ## The invariant -/

/-- The region's invariant before position `n`: before the first point the class's (the accumulator at anything);
    afterwards the accumulator at what the point before left, the first region's staging buffers at anything, the
    generator register at some state. -/
def PhiS (c : Dev nD) : (n : ℕ) → n ≤ cfg1.N → sProp 𝕄
  | 0, _ => Pipeline.ΦA spec1 c
  | n + 1, hn => iprop(others1 c (owns (c : Thread nD τ) scM1 fullShare (accAt V c ⟨n, hn⟩)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 c (owns (c : Thread nD τ) scM1 fullShare (accAt V c ⟨n, hn⟩)) ∗ (∃ r, prngReg c r)) := rfl

theorem PhiS_pos (c : Dev nD) (n : ℕ) (h : n ≤ cfg1.N) (hz : n ≠ 0) :
    PhiS V c n h = iprop(others1 c (owns (c : Thread nD τ) scM1 fullShare (accAt V c ⟨n - 1, by omega⟩)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt V c t := by dsimp only [dat1]

/-- Each input's staging buffer holds its block when the body runs, fetched at that point or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- Before any point the invariant yields the accumulator at SOME contents beside the buffers the region never
    touches and the generator register: the named contents forgotten. -/
theorem PhiS_any (c : Dev nD) (n : ℕ) (h : n ≤ cfg1.N) :
    PhiS V c n h ⊢ iprop(others1 c (iprop(∃ d, owns (c : Thread nD τ) scM1 fullShare d)) ∗ (∃ r, prngReg c r)) := by
  cases n with
  | zero => rw [PhiS_zero V c 0 h rfl, PhiA1_eq]
  | succ n =>
    rw [PhiS_succ]
    iintro ⟨⟨HA0, HA1, HA2, HA3, HA4, HA5, HA6, HA7, HS0⟩, Hg⟩
    isplitl [HA0 HA1 HA2 HA3 HA4 HA5 HA6 HA7 HS0]
    · isplitl [HA0]; · iexact HA0
      isplitl [HA1]; · iexact HA1
      isplitl [HA2]; · iexact HA2
      isplitl [HA3]; · iexact HA3
      isplitl [HA4]; · iexact HA4
      isplitl [HA5]; · iexact HA5
      isplitl [HA6]; · iexact HA6
      isplitl [HA7]; · iexact HA7
      iexists _; iexact HS0
    iexact Hg

set_option maxHeartbeats 4800000 in
/-- The body at any point: the inputs' memrefs hold their blocks; the point's parity says which kind of step it is;
    the invariant hands the body the accumulator (at what the point before left, or at anything) beside the buffers it
    never touches, and takes the accumulator back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  by_cases h0 : t.val % 2 = 0
  · rw [Dat.leavesExact_idle (dat1 V c) 4 t (idleAt1_4_A t (cA0 t h0) (cA1 t h0)) (noFlush1_4_A t (cA0 t h0) (cA1 t h0))]
    rw [show (⟨t.val, t.isLt⟩ : Fin cfg1.N) = t from rfl, accAt_even V c t h0]
    unfold accA sout1_A; (try dsimp only)
    rw [PhiS_castSucc V c t]
    iintro ⟨HΦ, Ho, ⟨%d0, H0⟩, ⟨%d1, H1⟩, ⟨%d2, H2⟩, ⟨%d3, H3⟩, ⟨%d4, H4⟩⟩
    ihave HΦ' := (PhiS_any V c _ _) $$ HΦ
    icases HΦ' with ⟨⟨HA0, HA1, HA2, HA3, HA4, HA5, HA6, HA7, HS0⟩, Hg⟩
    iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) (cA0 t h0) (cA1 t h0) (iblk1 V c 0 t) (iblk1 V c 1 t) (iblk1 V c 2 t) (iblk1 V c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HA0 HA1 HA2 HA3 HA4 HA5 HA6 HA7 HS0 Hg]
    · isplitl [HA0 HA1 HA2 HA3 HA4 HA5 HA6 HA7 HS0]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        unfold owns; iexists _; isplitr
        swap; · iexact HS0
        ipureintro; exact View.read_writes_of_cover _ _ _ _ _ (scover1_A c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have h1 : t.val % 2 = 1 := by omega
    have hz : t.val ≠ 0 := by omega
    rw [show (dat1 V c).leavesExact 4 t = owns (c : Thread nD τ) (ms1_4 t) fullShare ((dat1 V c).after 4 t) from by
      unfold Dat.leavesExact; rw [liveAt1_4_B t (cB0 t h1) (cB1 t h1)], after1_4, outAt_odd V c t h1]
    rw [show (⟨t.val, t.isLt⟩ : Fin cfg1.N) = t from rfl, accAt_odd V c t h1]
    rw [PhiS_castSucc V c t, PhiS_pos V c _ _ hz, show (⟨t.val - 1, by omega⟩ : Fin cfg1.N) = prevPt t from rfl,
      accAt_even V c (prevPt t) (prevPt_even t h1)]
    unfold accB outB out1_B_4 sout1_B; (try dsimp only)
    iintro ⟨⟨⟨HA0, HA1, HA2, HA3, HA4, HA5, HA6, HA7, HS0⟩, Hg⟩, Ho, ⟨%d0, H0⟩, ⟨%d1, H1⟩, ⟨%d2, H2⟩, ⟨%d3, H3⟩, ⟨%d4, H4⟩⟩
    iapply ((kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) (cB0 t h1) (cB1 t h1) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HA0 HA1 HA2 HA3 HA4 HA5 HA6 HA7 HS0 Hg]
    · isplitl [HA0 HA1 HA2 HA3 HA4 HA5 HA6 HA7 HS0]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        unfold owns; iexists _; isplitr
        swap; · iexact HS0
        ipureintro; exact View.read_writes_of_cover _ _ _ _ _ (scover1_B c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact PhiS_any V c _ _

end Cert.Kernel.Fr

end
-- ==== Proof.K.Run.lean ====
/-
  The whole run: @main is a stretch of three host reshapes (the three bias vectors as one-row arrays), then the first
  region, then the second. The buffers' contents at each boundary are a fold from the launch memory: after the host
  stretch; after the first region (its two output arrays at what its write-backs leave, every other buffer as
  entered); after the second region (its output array at what its write-backs leave). Each region is entered from
  "every unscoped buffer at the boundary's contents, the generator register at some state, nothing owed" and left at
  the next boundary's; the second region's invariant tracks its accumulator in between. The conclusion reads every
  unscoped buffer of the final memory at the last boundary's contents, and each argument array back to the launch.
-/
import proofs.«105507_j35759897706654_1_alg».proof.Proof.Gen.Kernel.Regions
import proofs.«105507_j35759897706654_1_alg».proof.Proof.K.Proj
import proofs.«105507_j35759897706654_1_alg».proof.Proof.K.Acc

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c => Gen.V0 m c
/-- After the host stretch (the first region's entry). -/
abbrev W1 : Dev nD → Valuation τ sig (Elt F) := fun c => Gen.V1 m c
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched: no host operation and no region writes one -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := Gen.V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 3).trans (((dat0 (V1 m) c).arrAt_in 3 rfl _).trans (A_eq0 (V1 m) c 3))
    _ = W0 m c (Proc.devRef .tc main_arg1) := Gen.V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := Gen.V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := Gen.V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 4).trans (((dat0 (V1 m) c).arrAt_in 4 rfl _).trans (A_eq0 (V1 m) c 4))
    _ = W0 m c (Proc.devRef .tc main_arg4) := Gen.V1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := Gen.V1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := (W3_arr m c 2).trans (((dat1 (V2 m) c).arrAt_in 2 rfl _).trans (A_eq1 (V2 m) c 2))
    _ = W1 m c (Proc.devRef .tc main_arg6) := W2_of_ne m c main_arg6 (by decide)
    _ = W0 m c (Proc.devRef .tc main_arg6) := Gen.V1_of m c main_arg6 (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := Gen.V1_of m c main_arg7 (by decide)
    _ = m ((c : Thread nD τ).loc main_arg7) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region: entered from every unscoped buffer at `W1`, left at `W2`; the generator register into the class
    invariant and out; nothing owed; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`; the generator register and the scoped
    rest into the class invariant, from which the tracking invariant starts and to which it returns. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec1 c : sProp 𝕄) from by
      unfold Pipeline.ΦA
      iintro ⟨Hp, -, Hr⟩
      isplitl [Hr]; · iexact Hr
      iexact Hp).trans (show Pipeline.ΦA spec1 c ⊢ (pdats m 1 c).Φ 0 from hin1 (V2 m) c)
  hout c :=
    (show (pdats m 1 c).Φ (Fin.last _) ⊢ Pipeline.ΦA spec1 c from hout1 (V2 m) c).trans
      (show (Pipeline.ΦA spec1 c : sProp 𝕄) ⊢ _ from by
        rw [Pipeline.ownSems0_none]; unfold Pipeline.ΦA
        iintro ⟨Hr, Hp⟩
        isplitl [Hp]; · iexact Hp
        isplitr; · iempintro
        iexact Hr)
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) Gen.adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.Kernel.Fr

end
-- ==== Proof.K.Frame.lean ====
/-
  The frame claim's post read off the run: every argument array is an unscoped buffer, the run leaves each unscoped
  buffer at the last boundary's contents, and at an argument those are the launch contents (no host operation and no
  region writes one).
-/
import proofs.«105507_j35759897706654_1_alg».proof.Proof.K.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates, nothing faulting, with the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c)⟩)
    (run m ρ)

end Cert.Kernel.Fr

end
-- ==== Proof.KI.Proj.lean ====
/-
  The first region: the two projections. One grid point; six input windows, each the whole of its array
  (x1, W1, the bias row b1 as a 1 × 256 array, x2, W2, the bias row b2), and two output windows, each the whole of a
  128 × 256 array. The body loads the six blocks whole and stores into each output, whole, one value: the product of
  an input block with the transpose of a weight block plus the broadcast bias row. This module states what the body
  leaves in the two outputs as functions of the six blocks, runs the body once, and packs the result as the region's
  proof data at ANY contents `V` of the core's buffers when the region is entered.
-/
import proofs.«105507_j35759897706654_1_alg».proof.Proof.Gen.KernelIdeal.Launch
import proofs.«105507_j35759897706654_1_alg».proof.Proof.Gen.KernelIdeal.Skeleton
import proofs.«105507_j35759897706654_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rX1 : Rect S128x2048 := Rect.unit (s := S128x2048) ![0, 0] S128x2048.size inb_S128x2048_S128x2048_0_0
abbrev rW1 : Rect S256x2048 := Rect.unit (s := S256x2048) ![0, 0] S256x2048.size inb_S256x2048_S256x2048_0_0
abbrev rB : Rect S1x256 := Rect.unit (s := S1x256) ![0, 0] S1x256.size inb_S1x256_S1x256_0_0
abbrev rX2 : Rect S128x1024 := Rect.unit (s := S128x1024) ![0, 0] S128x1024.size inb_S128x1024_S128x1024_0_0
abbrev rW2 : Rect S256x1024 := Rect.unit (s := S256x1024) ![0, 0] S256x1024.size inb_S256x1024_S256x1024_0_0
abbrev rH : Rect S128x256 := Rect.unit (s := S128x256) ![0, 0] S128x256.size inb_S128x256_S128x256_0_0

/-- What the body leaves in the first output's buffer: its one store, of the first projection of the blocks. -/
def outH1 (x0 : Vec F S128x2048 .f32) (x1 : Vec F S256x2048 .f32) (x2 : Vec F S1x256 .f32) : Vec F S128x256 .f32 :=
  View.canon [⟨rH, k0_pay1 (View.ld x0 rX1) (View.ld x1 rW1) (View.ld x2 rB)⟩]
/-- What the body leaves in the second output's buffer: its one store, of the second projection of the blocks. -/
def outH2 (x3 : Vec F S128x1024 .f32) (x4 : Vec F S256x1024 .f32) (x5 : Vec F S1x256 .f32) : Vec F S128x256 .f32 :=
  View.canon [⟨rH, k0_pay2 (View.ld x3 rX2) (View.ld x4 rW2) (View.ld x5 rB)⟩]

/-- One whole-block store covers the block. -/
theorem coverH (p0 : Vec F S128x256 .f32) (y : S128x256.Idx) :
    ∃ pc ∈ ([⟨rH, p0⟩] : List (View.Piece (Elt F) S128x256 .f32)), y ∈ pc.1.set :=
  View.cover_of_tiled [⟨rH, p0⟩] S128x256.size (by rfl) y

set_option maxHeartbeats 4000000 in
/-- The body on whole staging memrefs, the six inputs at read contents and the two outputs at anything, runs to the
    continuation holding the inputs as they were and the outputs at `outH1`, `outH2` of the inputs. -/
theorem sound_kernel0 (c : Dev nD) (E : Set ℕ) (i : grid0.Coords)
    (arg1 : Memref sig .tc .vmem S128x2048 .f32) (harg1 : arg1.IsWhole) (arg2 : Memref sig .tc .vmem S256x2048 .f32) (harg2 : arg2.IsWhole)
    (arg3 : Memref sig .tc .vmem S1x256 .f32) (harg3 : arg3.IsWhole) (arg4 : Memref sig .tc .vmem S128x1024 .f32) (harg4 : arg4.IsWhole)
    (arg5 : Memref sig .tc .vmem S256x1024 .f32) (harg5 : arg5.IsWhole) (arg6 : Memref sig .tc .vmem S1x256 .f32) (harg6 : arg6.IsWhole)
    (arg7 : Memref sig .tc .vmem S128x256 .f32) (harg7 : arg7.IsWhole) (arg8 : Memref sig .tc .vmem S128x256 .f32) (harg8 : arg8.IsWhole)
    (x0 : Vec F S128x2048 .f32) (x1 : Vec F S256x2048 .f32) (x2 : Vec F S1x256 .f32)
    (x3 : Vec F S128x1024 .f32) (x4 : Vec F S256x1024 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH1 x0 x1 x2) ∗ owns (c : Thread nD τ) arg8 fullShare (outH2 x3 x4 x5)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverH _)
  iexists _; isplitr
  swap; · iexact H7
  ipureintro
  exact View.read_writes_eq_canon _ _ _ (coverH _)

/-! ## The region's proof data -/

/-- The proof data of the first region on core `c`: the arrays as the region finds them; after the body each input's
    buffer at its block and each output's at its projection of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => outH1 (iblk0 V c 0 t) (iblk0 V c 1 t) (iblk0 V c 2 t)
    | ⟨7, _⟩ => outH2 (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = outH1 (iblk0 V c 0 t) (iblk0 V c 1 t) (iblk0 V c 2 t) := by dsimp only [dat0]
theorem after0_7 (c : Dev nD) (t : Fin cfg0.N) : (dat0 V c).after 7 t = outH2 (iblk0 V c 3 t) (iblk0 V c 4 t) (iblk0 V c 5 t) := by dsimp only [dat0]

/-- Each input's staging buffer holds its block when the body runs: an input window the body only reads. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at the region's point: the inputs' memrefs hold their blocks, so the run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at the region's point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.AccDefs.lean ====
/-
  The second region, what its two kinds of grid point share. The grid is 8 × 2: for each of 8 tiles of 128 output
  columns, two steps over the halves of the 65536 flattened columns. The body keeps a 128 × 128 accumulator in a
  scratch buffer across the two steps of a tile: at the first step (second grid coordinate 0) it zeroes the
  accumulator, at every step it adds the step's product into it, and at the last step (second coordinate 1) it
  stores accumulator plus bias row into the output block. Here: the two branch conditions in closed form over the
  grid, where the output window is idle, the staging and scratch memrefs, and the region's class invariant with the
  scratch singled out.
-/
import proofs.«105507_j35759897706654_1_alg».proof.Proof.Gen.KernelIdeal.Launch
import proofs.«105507_j35759897706654_1_alg».proof.Proof.Gen.KernelIdeal.Skeleton
import proofs.«105507_j35759897706654_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional's condition (zero the accumulator), from the grid coordinates. -/
abbrev cond1_0 (i : grid1.Coords) : Prop := (Scalar.cmpi .ne (Scalar.extui (Scalar.cmpi .eq (BitVec.ofNat 32 (i 1).val) 0#32)) 0#32) = 1#1
/-- It holds at the first step of each tile: the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional's condition (store the output block). -/
abbrev cond1_1 (i : grid1.Coords) : Prop := k1_cond2 i = 1#1
/-- It holds at the last step of each tile: the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At a tile's first step the output window is idle (the body stores nothing into it) and not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- At a tile's last step it is live. -/
theorem liveAt1_4_B : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S128x128 .f32 := (Memref.whole cc1_stg4_0 : Memref sig .tc .vmem S128x128 .f32).view
abbrev ms1_0 (t : Fin cfg1.N) : Memref sig .tc .vmem S128x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x32768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev scM1 : Memref sig .tc .vmem S128x128 .f32 := Memref.whole cc1_scratch0
abbrev VS1 : View sig .tc .vmem S128x128 .f32 := scM1.view

/-- A scoped buffer whole at some contents. -/
abbrev anyAt (c : Dev nD) (b : Ref sig .tc) : sProp 𝕄 :=
  iprop(∃ f : Buf (Elt F) ((c : Thread nD τ).loc b), ((c : Thread nD τ).loc b) ↦{fullShare} f)

/-- The first region's eight staging buffers, which this region never touches, each at some contents. -/
abbrev others1 (c : Dev nD) (S : sProp 𝕄) : sProp 𝕄 :=
  iprop(anyAt (F := F) c cc0_stg0_0 ∗ anyAt (F := F) c cc0_stg1_0 ∗ anyAt (F := F) c cc0_stg2_0 ∗ anyAt (F := F) c cc0_stg3_0
    ∗ anyAt (F := F) c cc0_stg4_0 ∗ anyAt (F := F) c cc0_stg5_0 ∗ anyAt (F := F) c cc0_stg6_0 ∗ anyAt (F := F) c cc0_stg7_0 ∗ S)

/-- The region's class invariant with the accumulator as a memref owned at some contents. -/
theorem PhiA1_eq (c : Dev nD) :
    (Pipeline.ΦA spec1 c : sProp 𝕄)
      = iprop(others1 c (iprop(∃ d, owns (c : Thread nD τ) scM1 fullShare d)) ∗ (∃ r, prngReg c r)) := by
  unfold Pipeline.ΦA; rw [scopedRest1_eq]; simp only [scM1, owns_whole]; try rfl

end Cert.KernelIdeal.Fr

end
-- ==== Proof.KI.AccRunA.lean ====
/-
  The second region's body at a tile's FIRST step (the first conditional taken, the second not): the accumulator is
  zeroed, the step's product is added into it, the output block is left untouched. The pieces the accumulator ends
  with are found by the run.
-/
import proofs.«105507_j35759897706654_1_alg».proof.Proof.KI.AccDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four inputs at their contents, the output block at contents handed back untouched, the
    accumulator at anything — the body runs to the continuation holding the inputs and the output as they were and the
    accumulator with its pieces written. -/
noncomputable def kernelRun1_A (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x32768 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (hc0 : cond1_0 i) (hc1 : ¬cond1_1 i)
    (x0 : Vec F S128x256 .f32) (x1 : Vec F S128x256 .f32) (x2 : Vec F S128x32768 .f32) (x3 : Vec F S1x128 .f32) :
    Σ' (L4 : List (View.Piece (Elt F) S128x128 .f32)), { LS0 : List (View.Piece (Elt F) S128x128 .f32) //
      ∀ (xi4 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__bilinear_kernel i arg2 harg2 arg3 harg3 arg4 harg4 arg5 harg5 arg6 harg6 arg7 harg7) K } := by
  refine ⟨[], ?_, fun xi4 E K => ?run⟩
  case run =>
    simp only [cc1__bilinear_kernel_eq_skeleton]; unfold cc1__bilinear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KI.AccRunB.lean ====
/-
  The second region's body at a tile's LAST step (the first conditional not taken, the second taken): the step's
  product is added into the accumulator the first step left, and accumulator plus bias row is stored into the output
  block. The pieces the output block and the accumulator end with are found by the run.
-/
import proofs.«105507_j35759897706654_1_alg».proof.Proof.KI.AccDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four inputs at their contents, the output block at anything, the accumulator at the
    contents `xs0` the step before left — the body runs to the continuation holding the inputs as they were and the
    output block and the accumulator with their pieces written. -/
noncomputable def kernelRun1_B (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x32768 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x256 .f32) (x1 : Vec F S128x256 .f32) (x2 : Vec F S128x32768 .f32) (x3 : Vec F S1x128 .f32) (xs0 : Vec F S128x128 .f32) :
    Σ' (L4 : List (View.Piece (Elt F) S128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__bilinear_kernel i arg2 harg2 arg3 harg3 arg4 harg4 arg5 harg5 arg6 harg6 arg7 harg7) K } := by
  refine ⟨?_, ?_, fun E K => ?run⟩
  case run =>
    simp only [cc1__bilinear_kernel_eq_skeleton]; unfold cc1__bilinear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.KI.Acc.lean ====
/-
  The second region as proof data. What the accumulator holds after each grid point is stated tile by tile: after a
  tile's first step, what that step's run leaves (zero plus the first half's product); after its last step, what that
  step's run leaves over the first step's contents. The region's invariant before a point names the accumulator's
  contents after the point before (anything before the first point). The output block's buffer after a last step is
  what that step's run stores (accumulator plus bias); at a first step the window is idle and its buffer untouched.
  All of it at ANY contents `V` of the core's buffers when the region is entered.
-/
import proofs.«105507_j35759897706654_1_alg».proof.Proof.KI.AccRunA
import proofs.«105507_j35759897706654_1_alg».proof.Proof.KI.AccRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What each kind of step leaves -/

/-- A first step's pieces for the accumulator cover it. -/
theorem scover1_A (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x32768 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (hc0 : cond1_0 i) (hc1 : ¬cond1_1 i)
    (x0 : Vec F S128x256 .f32) (x1 : Vec F S128x256 .f32) (x2 : Vec F S128x32768 .f32) (x3 : Vec F S1x128 .f32) (y : S128x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S128x128.size (by sl_kernel_rfl) y

/-- What a first step leaves in the accumulator: its pieces read back. -/
def sout1_A (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x32768 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (hc0 : cond1_0 i) (hc1 : ¬cond1_1 i)
    (x0 : Vec F S128x256 .f32) (x1 : Vec F S128x256 .f32) (x2 : Vec F S128x32768 .f32) (x3 : Vec F S1x128 .f32) : Vec F S128x128 .f32 :=
  VS1.read (Elt F) (VS1.writes (Elt F) VS1.junk (kernelRun1_A c i arg2 harg2 arg3 harg3 arg4 harg4 arg5 harg5 arg6 harg6 arg7 harg7 hc0 hc1 x0 x1 x2 x3).2.1)

/-- A last step's pieces for the output block cover it. -/
theorem cover1_B_4 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x32768 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x256 .f32) (x1 : Vec F S128x256 .f32) (x2 : Vec F S128x32768 .f32) (x3 : Vec F S1x128 .f32) (xs0 : Vec F S128x128 .f32) (y : S128x128.Idx) :
    ∃ pc ∈ (kernelRun1_B c i arg2 harg2 arg3 harg3 arg4 harg4 arg5 harg5 arg6 harg6 arg7 harg7 hc0 hc1 x0 x1 x2 x3 xs0).1, y ∈ pc.1.set :=
  View.cover_of_tiledL (kernelRun1_B c i arg2 harg2 arg3 harg3 arg4 harg4 arg5 harg5 arg6 harg6 arg7 harg7 hc0 hc1 x0 x1 x2 x3 xs0).1 S128x128.size (by sl_kernel_rfl) y

/-- What a last step leaves in the output block's buffer: its pieces read back. -/
def out1_B_4 (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x32768 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x256 .f32) (x1 : Vec F S128x256 .f32) (x2 : Vec F S128x32768 .f32) (x3 : Vec F S1x128 .f32) (xs0 : Vec F S128x128 .f32) : Vec F S128x128 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- A last step's pieces for the accumulator cover it. -/
theorem scover1_B (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x32768 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x256 .f32) (x1 : Vec F S128x256 .f32) (x2 : Vec F S128x32768 .f32) (x3 : Vec F S1x128 .f32) (xs0 : Vec F S128x128 .f32) (y : S128x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S128x128.size (by sl_kernel_rfl) y

/-- What a last step leaves in the accumulator: its pieces read back. -/
def sout1_B (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x32768 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x256 .f32) (x1 : Vec F S128x256 .f32) (x2 : Vec F S128x32768 .f32) (x3 : Vec F S1x128 .f32) (xs0 : Vec F S128x128 .f32) : Vec F S128x128 .f32 :=
  VS1.read (Elt F) (VS1.writes (Elt F) VS1.junk (kernelRun1_B c i arg2 harg2 arg3 harg3 arg4 harg4 arg5 harg5 arg6 harg6 arg7 harg7 hc0 hc1 x0 x1 x2 x3 xs0).2.1)

/-! ## The accumulator and the output block, point by point -/

theorem cA0 (t : Fin cfg1.N) (h : t.val % 2 = 0) : cond1_0 (grid1.coords t) := (hcond1_0 t).mpr h
theorem cA1 (t : Fin cfg1.N) (h : t.val % 2 = 0) : ¬cond1_1 (grid1.coords t) := fun h' => by have := (hcond1_1 t).mp h'; omega
theorem cB0 (t : Fin cfg1.N) (h : t.val % 2 = 1) : ¬cond1_0 (grid1.coords t) := fun h' => by have := (hcond1_0 t).mp h'; omega
theorem cB1 (t : Fin cfg1.N) (h : t.val % 2 = 1) : cond1_1 (grid1.coords t) := (hcond1_1 t).mpr h

/-- The point before an odd point. -/
def prevPt (t : Fin cfg1.N) : Fin cfg1.N := ⟨t.val - 1, Nat.lt_of_le_of_lt (Nat.sub_le _ _) t.isLt⟩
theorem prevPt_even (t : Fin cfg1.N) (h : t.val % 2 = 1) : (prevPt t).val % 2 = 0 := by
  show (t.val - 1) % 2 = 0; omega

/-- The accumulator after a tile's first step `t`. -/
def accA (c : Dev nD) (t : Fin cfg1.N) (h : t.val % 2 = 0) : Vec F S128x128 .f32 :=
  sout1_A c (grid1.coords t) (ms1_0 t) (hs1_0 t) (ms1_1 t) (hs1_1 t) (ms1_2 t) (hs1_2 t) (ms1_3 t) (hs1_3 t) (ms1_4 t) (hs1_4 t) scM1 (Memref.isWhole_whole _) (cA0 t h) (cA1 t h) (iblk1 V c 0 t) (iblk1 V c 1 t) (iblk1 V c 2 t) (iblk1 V c 3 t)

/-- The accumulator after a tile's last step `t`: over what the first step (the point before) left. -/
def accB (c : Dev nD) (t : Fin cfg1.N) (h : t.val % 2 = 1) : Vec F S128x128 .f32 :=
  sout1_B c (grid1.coords t) (ms1_0 t) (hs1_0 t) (ms1_1 t) (hs1_1 t) (ms1_2 t) (hs1_2 t) (ms1_3 t) (hs1_3 t) (ms1_4 t) (hs1_4 t) scM1 (Memref.isWhole_whole _) (cB0 t h) (cB1 t h) (iblk1 V c 0 t) (iblk1 V c 1 t) (iblk1 V c 2 t) (iblk1 V c 3 t) (accA V c (prevPt t) (prevPt_even t h))

/-- The accumulator after point `t`. -/
def accAt (c : Dev nD) (t : Fin cfg1.N) : Vec F S128x128 .f32 :=
  if h : t.val % 2 = 0 then accA V c t h else accB V c t (by omega)

theorem accAt_even (c : Dev nD) (t : Fin cfg1.N) (h : t.val % 2 = 0) : accAt V c t = accA V c t h := dif_pos h
theorem accAt_odd (c : Dev nD) (t : Fin cfg1.N) (h : t.val % 2 = 1) : accAt V c t = accB V c t h := by
  unfold accAt; rw [dif_neg (by omega)]

/-- The output block's buffer after a tile's last step `t`. -/
def outB (c : Dev nD) (t : Fin cfg1.N) (h : t.val % 2 = 1) : Vec F S128x128 .f32 :=
  out1_B_4 c (grid1.coords t) (ms1_0 t) (hs1_0 t) (ms1_1 t) (hs1_1 t) (ms1_2 t) (hs1_2 t) (ms1_3 t) (hs1_3 t) (ms1_4 t) (hs1_4 t) scM1 (Memref.isWhole_whole _) (cB0 t h) (cB1 t h) (iblk1 V c 0 t) (iblk1 V c 1 t) (iblk1 V c 2 t) (iblk1 V c 3 t) (accA V c (prevPt t) (prevPt_even t h))

/-- The output block's buffer after point `t`: at a last step what it stores; at a first step a placeholder nothing
    consults (the window is idle there: neither written back nor read at the next point). -/
def outAt (c : Dev nD) (t : Fin cfg1.N) : Vec F S128x128 .f32 :=
  if h : t.val % 2 = 1 then outB V c t h else VO1_4.read (Elt F) VO1_4.junk

theorem outAt_odd (c : Dev nD) (t : Fin cfg1.N) (h : t.val % 2 = 1) : outAt V c t = outB V c t h := dif_pos h

/-! ## The invariant -/

/-- The region's invariant before position `n`: before the first point the class's (the accumulator at anything);
    afterwards the accumulator at what the point before left, the first region's staging buffers at anything, the
    generator register at some state. -/
def PhiS (c : Dev nD) : (n : ℕ) → n ≤ cfg1.N → sProp 𝕄
  | 0, _ => Pipeline.ΦA spec1 c
  | n + 1, hn => iprop(others1 c (owns (c : Thread nD τ) scM1 fullShare (accAt V c ⟨n, hn⟩)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 c (owns (c : Thread nD τ) scM1 fullShare (accAt V c ⟨n, hn⟩)) ∗ (∃ r, prngReg c r)) := rfl

theorem PhiS_pos (c : Dev nD) (n : ℕ) (h : n ≤ cfg1.N) (hz : n ≠ 0) :
    PhiS V c n h = iprop(others1 c (owns (c : Thread nD τ) scM1 fullShare (accAt V c ⟨n - 1, by omega⟩)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt V c t := by dsimp only [dat1]

/-- Each input's staging buffer holds its block when the body runs, fetched at that point or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- Before any point the invariant yields the accumulator at SOME contents beside the buffers the region never
    touches and the generator register: the named contents forgotten. -/
theorem PhiS_any (c : Dev nD) (n : ℕ) (h : n ≤ cfg1.N) :
    PhiS V c n h ⊢ iprop(others1 c (iprop(∃ d, owns (c : Thread nD τ) scM1 fullShare d)) ∗ (∃ r, prngReg c r)) := by
  cases n with
  | zero => rw [PhiS_zero V c 0 h rfl, PhiA1_eq]
  | succ n =>
    rw [PhiS_succ]
    iintro ⟨⟨HA0, HA1, HA2, HA3, HA4, HA5, HA6, HA7, HS0⟩, Hg⟩
    isplitl [HA0 HA1 HA2 HA3 HA4 HA5 HA6 HA7 HS0]
    · isplitl [HA0]; · iexact HA0
      isplitl [HA1]; · iexact HA1
      isplitl [HA2]; · iexact HA2
      isplitl [HA3]; · iexact HA3
      isplitl [HA4]; · iexact HA4
      isplitl [HA5]; · iexact HA5
      isplitl [HA6]; · iexact HA6
      isplitl [HA7]; · iexact HA7
      iexists _; iexact HS0
    iexact Hg

set_option maxHeartbeats 4800000 in
/-- The body at any point: the inputs' memrefs hold their blocks; the point's parity says which kind of step it is;
    the invariant hands the body the accumulator (at what the point before left, or at anything) beside the buffers it
    never touches, and takes the accumulator back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  by_cases h0 : t.val % 2 = 0
  · rw [Dat.leavesExact_idle (dat1 V c) 4 t (idleAt1_4_A t (cA0 t h0) (cA1 t h0)) (noFlush1_4_A t (cA0 t h0) (cA1 t h0))]
    rw [show (⟨t.val, t.isLt⟩ : Fin cfg1.N) = t from rfl, accAt_even V c t h0]
    unfold accA sout1_A; (try dsimp only)
    rw [PhiS_castSucc V c t]
    iintro ⟨HΦ, Ho, ⟨%d0, H0⟩, ⟨%d1, H1⟩, ⟨%d2, H2⟩, ⟨%d3, H3⟩, ⟨%d4, H4⟩⟩
    ihave HΦ' := (PhiS_any V c _ _) $$ HΦ
    icases HΦ' with ⟨⟨HA0, HA1, HA2, HA3, HA4, HA5, HA6, HA7, HS0⟩, Hg⟩
    iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) (cA0 t h0) (cA1 t h0) (iblk1 V c 0 t) (iblk1 V c 1 t) (iblk1 V c 2 t) (iblk1 V c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HA0 HA1 HA2 HA3 HA4 HA5 HA6 HA7 HS0 Hg]
    · isplitl [HA0 HA1 HA2 HA3 HA4 HA5 HA6 HA7 HS0]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        unfold owns; iexists _; isplitr
        swap; · iexact HS0
        ipureintro; exact View.read_writes_of_cover _ _ _ _ _ (scover1_A c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have h1 : t.val % 2 = 1 := by omega
    have hz : t.val ≠ 0 := by omega
    rw [show (dat1 V c).leavesExact 4 t = owns (c : Thread nD τ) (ms1_4 t) fullShare ((dat1 V c).after 4 t) from by
      unfold Dat.leavesExact; rw [liveAt1_4_B t (cB0 t h1) (cB1 t h1)], after1_4, outAt_odd V c t h1]
    rw [show (⟨t.val, t.isLt⟩ : Fin cfg1.N) = t from rfl, accAt_odd V c t h1]
    rw [PhiS_castSucc V c t, PhiS_pos V c _ _ hz, show (⟨t.val - 1, by omega⟩ : Fin cfg1.N) = prevPt t from rfl,
      accAt_even V c (prevPt t) (prevPt_even t h1)]
    unfold accB outB out1_B_4 sout1_B; (try dsimp only)
    iintro ⟨⟨⟨HA0, HA1, HA2, HA3, HA4, HA5, HA6, HA7, HS0⟩, Hg⟩, Ho, ⟨%d0, H0⟩, ⟨%d1, H1⟩, ⟨%d2, H2⟩, ⟨%d3, H3⟩, ⟨%d4, H4⟩⟩
    iapply ((kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) (cB0 t h1) (cB1 t h1) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HA0 HA1 HA2 HA3 HA4 HA5 HA6 HA7 HS0 Hg]
    · isplitl [HA0 HA1 HA2 HA3 HA4 HA5 HA6 HA7 HS0]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        unfold owns; iexists _; isplitr
        swap; · iexact HS0
        ipureintro; exact View.read_writes_of_cover _ _ _ _ _ (scover1_B c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact PhiS_any V c _ _

end Cert.KernelIdeal.Fr

end
-- ==== Proof.KI.Run.lean ====
/-
  The whole run: @main is a stretch of three host reshapes (the three bias vectors as one-row arrays), then the first
  region, then the second. The buffers' contents at each boundary are a fold from the launch memory: after the host
  stretch; after the first region (its two output arrays at what its write-backs leave, every other buffer as
  entered); after the second region (its output array at what its write-backs leave). Each region is entered from
  "every unscoped buffer at the boundary's contents, the generator register at some state, nothing owed" and left at
  the next boundary's; the second region's invariant tracks its accumulator in between. The conclusion reads every
  unscoped buffer of the final memory at the last boundary's contents, and each argument array back to the launch.
-/
import proofs.«105507_j35759897706654_1_alg».proof.Proof.Gen.KernelIdeal.Regions
import proofs.«105507_j35759897706654_1_alg».proof.Proof.KI.Proj
import proofs.«105507_j35759897706654_1_alg».proof.Proof.KI.Acc

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c => Gen.V0 m c
/-- After the host stretch (the first region's entry). -/
abbrev W1 : Dev nD → Valuation τ sig (Elt F) := fun c => Gen.V1 m c
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched: no host operation and no region writes one -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := Gen.V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 3).trans (((dat0 (V1 m) c).arrAt_in 3 rfl _).trans (A_eq0 (V1 m) c 3))
    _ = W0 m c (Proc.devRef .tc main_arg1) := Gen.V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := Gen.V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := Gen.V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 4).trans (((dat0 (V1 m) c).arrAt_in 4 rfl _).trans (A_eq0 (V1 m) c 4))
    _ = W0 m c (Proc.devRef .tc main_arg4) := Gen.V1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := Gen.V1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := (W3_arr m c 2).trans (((dat1 (V2 m) c).arrAt_in 2 rfl _).trans (A_eq1 (V2 m) c 2))
    _ = W1 m c (Proc.devRef .tc main_arg6) := W2_of_ne m c main_arg6 (by decide)
    _ = W0 m c (Proc.devRef .tc main_arg6) := Gen.V1_of m c main_arg6 (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := Gen.V1_of m c main_arg7 (by decide)
    _ = m ((c : Thread nD τ).loc main_arg7) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region: entered from every unscoped buffer at `W1`, left at `W2`; the generator register into the class
    invariant and out; nothing owed; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`; the generator register and the scoped
    rest into the class invariant, from which the tracking invariant starts and to which it returns. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec1 c : sProp 𝕄) from by
      unfold Pipeline.ΦA
      iintro ⟨Hp, -, Hr⟩
      isplitl [Hr]; · iexact Hr
      iexact Hp).trans (show Pipeline.ΦA spec1 c ⊢ (pdats m 1 c).Φ 0 from hin1 (V2 m) c)
  hout c :=
    (show (pdats m 1 c).Φ (Fin.last _) ⊢ Pipeline.ΦA spec1 c from hout1 (V2 m) c).trans
      (show (Pipeline.ΦA spec1 c : sProp 𝕄) ⊢ _ from by
        rw [Pipeline.ownSems0_none]; unfold Pipeline.ΦA
        iintro ⟨Hr, Hp⟩
        isplitl [Hp]; · iexact Hp
        isplitr; · iempintro
        iexact Hr)
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) Gen.adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.KernelIdeal.Fr

end
-- ==== Proof.KI.Frame.lean ====
/-
  The frame claim's post read off the run: every argument array is an unscoped buffer, the run leaves each unscoped
  buffer at the last boundary's contents, and at an argument those are the launch contents (no host operation and no
  region writes one).
-/
import proofs.«105507_j35759897706654_1_alg».proof.Proof.KI.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates, nothing faulting, with the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c)⟩)
    (run m ρ)

end Cert.KernelIdeal.Fr

end
-- ==== Proof.KI.AccPieces.lean ====
/-
  What each kind of step of the second region leaves, as terms of the step's blocks: a first step leaves in the
  accumulator zero plus the step's product; a last step leaves in the accumulator what it held plus the step's
  product, and stores into the output block that sum plus the bias row. The step's product reads the columns of the
  first projection's block that the step's half of the flattened columns uses (`rOff`).
-/
import proofs.«105507_j35759897706654_1_alg».proof.Proof.KI.Acc
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The rectangle of the first projection's block that a step at coordinates `i` loads. -/
abbrev rOff (i : grid1.Coords) : Rect S128x256 := Rect.unit (s := S128x256) (k1_off1 i) S128x128.size (k1_off1_inb i)

/-- A first step leaves in the accumulator the step's product added to zero. -/
theorem soutA_eq (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x32768 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (hc0 : cond1_0 i) (hc1 : ¬cond1_1 i)
    (x0 : Vec F S128x256 .f32) (x1 : Vec F S128x256 .f32) (x2 : Vec F S128x32768 .f32) (x3 : Vec F S1x128 .f32) :
    sout1_A c i arg2 harg2 arg3 harg3 arg4 harg4 arg5 harg5 arg6 harg6 arg7 harg7 hc0 hc1 x0 x1 x2 x3 = k1_pay2 (View.ld x0 (rOff i)) x1 x2 (k1_pay1 (F := F)) := by
  unfold sout1_A
  rw [View.read_writes_eq_canon _ _ _ (scover1_A c i arg2 harg2 arg3 harg3 arg4 harg4 arg5 harg5 arg6 harg6 arg7 harg7 hc0 hc1 x0 x1 x2 x3)]
  unfold kernelRun1_A
  dsimp only
  sl_unfold_run_names
  rw [View.canon_cons_unit_zero hz2, View.readCov_unit_zero (S := S128x128) _ hz2]
  simp only [View.readAt_eq_ld, harg2.read_unread, harg3.read_unread, harg4.read_unread,
    View.ld_unit_zero (S := S128x256) hz2, View.ld_unit_zero (S := S128x32768) hz2]

/-- A last step leaves in the accumulator the step's product added to what it held. -/
theorem soutB_eq (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x32768 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x256 .f32) (x1 : Vec F S128x256 .f32) (x2 : Vec F S128x32768 .f32) (x3 : Vec F S1x128 .f32) (xs0 : Vec F S128x128 .f32) :
    sout1_B c i arg2 harg2 arg3 harg3 arg4 harg4 arg5 harg5 arg6 harg6 arg7 harg7 hc0 hc1 x0 x1 x2 x3 xs0 = k1_pay2 (View.ld x0 (rOff i)) x1 x2 xs0 := by
  unfold sout1_B
  rw [View.read_writes_eq_canon _ _ _ (scover1_B c i arg2 harg2 arg3 harg3 arg4 harg4 arg5 harg5 arg6 harg6 arg7 harg7 hc0 hc1 x0 x1 x2 x3 xs0)]
  unfold kernelRun1_B
  dsimp only
  sl_unfold_run_names
  rw [View.canon_unit_zero hz2]
  simp only [View.readAt_eq_ld, harg2.read_unread, harg3.read_unread, harg4.read_unread, harg7.read_unread,
    View.ld_unit_zero (S := S128x256) hz2, View.ld_unit_zero (S := S128x32768) hz2, View.ld_unit_zero (S := S128x128) hz2]

/-- A last step stores into the output block the new accumulator plus the bias row. -/
theorem outB_eq (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x32768 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x256 .f32) (x1 : Vec F S128x256 .f32) (x2 : Vec F S128x32768 .f32) (x3 : Vec F S1x128 .f32) (xs0 : Vec F S128x128 .f32) :
    out1_B_4 c i arg2 harg2 arg3 harg3 arg4 harg4 arg5 harg5 arg6 harg6 arg7 harg7 hc0 hc1 x0 x1 x2 x3 xs0 = k1_pay3 (k1_pay2 (View.ld x0 (rOff i)) x1 x2 xs0) x3 := by
  unfold out1_B_4
  rw [View.read_writes_eq_canon _ _ _ (cover1_B_4 c i arg2 harg2 arg3 harg3 arg4 harg4 arg5 harg5 arg6 harg6 arg7 harg7 hc0 hc1 x0 x1 x2 x3 xs0)]
  unfold kernelRun1_B
  dsimp only
  sl_unfold_run_names
  rw [View.canon_unit_zero hz2, View.readCov_unit_zero (S := S128x128) _ hz2]
  simp only [View.readAt_eq_ld, harg2.read_unread, harg3.read_unread, harg4.read_unread, harg5.read_unread, harg7.read_unread,
    View.ld_unit_zero (S := S128x256) hz2, View.ld_unit_zero (S := S128x32768) hz2, View.ld_unit_zero (S := S128x128) hz2,
    View.ld_unit_zero (S := S1x128) hz2]

end Cert.KernelIdeal.Fr

end
-- ==== Proof.KI.AccBlocks.lean ====
/-
  The second region's blocks as reads of the arrays. At grid point `t` the tile is `o = t / 2` and the step is
  `k = t % 2`. The two projections' windows are their whole arrays at every point; the weight window's block is rows
  `128·o …` and columns `32768·k …` of the 1024 × 65536 weight array; the bias window's block is columns `128·o …`
  of the one-row bias array; the output window's block is columns `128·o …` of the 128 × 1024 result array; and the
  body's partial load of the first projection reads its columns `128·k …`. Each is stated at an index, from the
  printed index maps decided once over the sixteen points.
-/
import proofs.«105507_j35759897706654_1_alg».proof.Proof.KI.Acc
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps of the five windows and the partial load's offset, at every point of the grid. -/
theorem idx1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val / 2 ∧ win1_2.index t (1 : Fin 2) = t.val % 2
    ∧ win1_3.index t (0 : Fin 2) = 0 ∧ win1_3.index t (1 : Fin 2) = t.val / 2
    ∧ win1_4.index t (0 : Fin 2) = 0 ∧ win1_4.index t (1 : Fin 2) = t.val / 2
    ∧ k1_off1 (grid1.coords t) (0 : Fin 2) = 0 ∧ k1_off1 (grid1.coords t) (1 : Fin 2) = (t.val % 2) * 128 :=
  (by decide +kernel : ∀ t : Fin grid1.N, _)

/-- The first projection's block is the whole array. -/
theorem blk_h1 (c : Dev nD) (t : Fin cfg1.N) (p : Fin 128) (q : Fin 256) :
    (iblk1 V c 0 t : Vec F S128x256 .f32) (ix2 p q) = (V c main_v3_0 : S128x256.Idx → Elt F .f32) (ix2 p q) := by
  obtain ⟨e0, e1, -⟩ := idx1 t
  unfold iblk1
  rw [View.read_apply]
  show V c main_v3_0 _ = V c main_v3_0 _
  refine congrArg _ ?_
  funext a; apply Fin.ext
  match a with
  | ⟨0, _⟩ => show win1_0.index t (0 : Fin 2) * 128 + 1 * p.val = p.val; rw [e0]; omega
  | ⟨1, _⟩ => show win1_0.index t (1 : Fin 2) * 256 + 1 * q.val = q.val; rw [e1]; omega

/-- The second projection's block is the whole array. -/
theorem blk_h2 (c : Dev nD) (t : Fin cfg1.N) (p : Fin 128) (q : Fin 256) :
    (iblk1 V c 1 t : Vec F S128x256 .f32) (ix2 p q) = (V c main_v3_1 : S128x256.Idx → Elt F .f32) (ix2 p q) := by
  obtain ⟨-, -, e0, e1, -⟩ := idx1 t
  unfold iblk1
  rw [View.read_apply]
  show V c main_v3_1 _ = V c main_v3_1 _
  refine congrArg _ ?_
  funext a; apply Fin.ext
  match a with
  | ⟨0, _⟩ => show win1_1.index t (0 : Fin 2) * 128 + 1 * p.val = p.val; rw [e0]; omega
  | ⟨1, _⟩ => show win1_1.index t (1 : Fin 2) * 256 + 1 * q.val = q.val; rw [e1]; omega

/-- The weight block at point `t`: rows `128·(t/2) …`, columns `32768·(t%2) …` of the weight array. -/
theorem blk_w (c : Dev nD) (t : Fin cfg1.N) (n' : Fin 128) (cc : Fin 32768) (n : Fin 1024) (col : Fin 65536)
    (hn : n.val = (t.val / 2) * 128 + n'.val) (hcol : col.val = (t.val % 2) * 32768 + cc.val) :
    (iblk1 V c 2 t : Vec F S128x32768 .f32) (ix2 n' cc) = (V c main_arg6 : S1024x65536.Idx → Elt F .f32) (ix2 n col) := by
  obtain ⟨-, -, -, -, e0, e1, -⟩ := idx1 t
  unfold iblk1
  rw [View.read_apply]
  show V c main_arg6 _ = V c main_arg6 _
  refine congrArg _ ?_
  funext a; apply Fin.ext
  match a with
  | ⟨0, _⟩ => show win1_2.index t (0 : Fin 2) * 128 + 1 * n'.val = n.val; rw [e0, hn]; omega
  | ⟨1, _⟩ => show win1_2.index t (1 : Fin 2) * 32768 + 1 * cc.val = col.val; rw [e1, hcol]; omega

/-- The bias block at point `t`: columns `128·(t/2) …` of the one-row bias array. -/
theorem blk_b (c : Dev nD) (t : Fin cfg1.N) (n' : Fin 128) (n : Fin 1024) (hn : n.val = (t.val / 2) * 128 + n'.val) :
    (iblk1 V c 3 t : Vec F S1x128 .f32) (ix2 (0 : Fin 1) n') = (V c main_v2 : S1x1024.Idx → Elt F .f32) (ix2 (0 : Fin 1) n) := by
  obtain ⟨-, -, -, -, -, -, e0, e1, -⟩ := idx1 t
  unfold iblk1
  rw [View.read_apply]
  show V c main_v2 _ = V c main_v2 _
  refine congrArg _ ?_
  funext a; apply Fin.ext
  match a with
  | ⟨0, _⟩ => show win1_3.index t (0 : Fin 2) * 1 + 1 * (0 : Fin 1).val = (0 : Fin 1).val; rw [e0]; rfl
  | ⟨1, _⟩ => show win1_3.index t (1 : Fin 2) * 128 + 1 * n'.val = n.val; rw [e1, hn]; omega

/-- The body's partial load of the first projection's block at point `t` reads its columns `128·(t%2) …`. -/
theorem ld_h1 (t : Fin cfg1.N) (x : Vec F S128x256 .f32) (p a : Fin 128) (q : Fin 256) (hq : q.val = (t.val % 2) * 128 + a.val) :
    (View.ld x (Rect.unit (s := S128x256) (k1_off1 (grid1.coords t)) S128x128.size (k1_off1_inb (grid1.coords t))) : Vec F S128x128 .f32) (ix2 p a)
      = x (ix2 p q) := by
  obtain ⟨-, -, -, -, -, -, -, -, -, -, e0, e1⟩ := idx1 t
  show x ((Rect.unit (s := S128x256) (k1_off1 (grid1.coords t)) S128x128.size (k1_off1_inb (grid1.coords t))).emb (ix2 p a)) = x (ix2 p q)
  refine congrArg _ ?_
  funext b; apply Fin.ext
  match b with
  | ⟨0, _⟩ => show k1_off1 (grid1.coords t) (0 : Fin 2) + 1 * p.val = p.val; rw [e0]; omega
  | ⟨1, _⟩ => show k1_off1 (grid1.coords t) (1 : Fin 2) + 1 * a.val = q.val; rw [e1, hq]; omega

end Cert.KernelIdeal.Fr

end
-- ==== Proof.Spec.lean ====
/-
  The result of the bilinear layer as one function of the argument arrays, index by index, on the extended reals.

  Two projections h1 = x1·W1ᵀ + b1 and h2 = x2·W2ᵀ + b2 (128 × 256 each); their row-wise outer product flattened
  row-major, flat[p, i·256 + j] = h1[p, i] · h2[p, j]; and the output out[p, n] = Σ_c flat[p, c] · Wout[n, c] + bout[n]
  over all 65536 columns c. `outAt` is that sum taken whole; `tiledAt` is the same sum taken as two halves of 32768
  columns added, one after the other, to a zero start — the order in which a column-tiled evaluation accumulates it.
  The two agree because addition of extended reals is commutative and associative (no finiteness is needed).
-/
import Idealize.ShloMosaic.PureOps.Ideal
import Idealize.ShloMosaic.Lib.ValueIdx

noncomputable section

open scoped BigOperators

namespace Cert.Bilinear

open Idealize.ShloMosaic Idealize.ShloMosaic.ValueIdx

/-- A rank-2 array of extended reals. -/
abbrev Arr2 (n0 n1 : Nat) : Type := (⟨2, ![n0, n1]⟩ : Shape).Idx → EReal
/-- A rank-1 array of extended reals. -/
abbrev Arr1 (n : Nat) : Type := (⟨1, ![n]⟩ : Shape).Idx → EReal

/-- One entry of a projection: row `p` of `x` against row `q` of `W`, plus the bias at `q`. -/
def projAt {K : Nat} (x : Arr2 128 K) (W : Arr2 256 K) (b : Arr1 256) (p : Fin 128) (q : Fin 256) : EReal :=
  (∑ k : Fin K, x (ix2 p k) * W (ix2 q k)) + b (ix1 q)

/-- The projection as an array. -/
def proj {K : Nat} (x : Arr2 128 K) (W : Arr2 256 K) (b : Arr1 256) : Arr2 128 256 :=
  fun i => projAt x W b (i 0) (i 1)

/-- The flattened outer product's column `c` splits as `c = i·256 + j`. -/
def colI (c : Fin 65536) : Fin 256 := ⟨c.val / 256, by have := c.isLt; omega⟩
def colJ (c : Fin 65536) : Fin 256 := ⟨c.val % 256, by omega⟩

/-- One term of the output's sum: flat[p, c] · Wout[n, c]. -/
def term (h1 h2 : Arr2 128 256) (Wout : Arr2 1024 65536) (p : Fin 128) (n : Fin 1024) (c : Fin 65536) : EReal :=
  (h1 (ix2 p (colI c)) * h2 (ix2 p (colJ c))) * Wout (ix2 n c)

/-- One entry of the output, the sum over all columns taken whole. -/
def outAt (h1 h2 : Arr2 128 256) (Wout : Arr2 1024 65536) (bout : Arr1 1024) (p : Fin 128) (n : Fin 1024) : EReal :=
  (∑ c : Fin 65536, term h1 h2 Wout p n c) + bout (ix1 n)

/-- Inside one half of the columns, column `c` splits as `c = i·256 + j` with `i < 128`. -/
def tileI (c : Fin 32768) : Fin 128 := ⟨c.val / 256, by have := c.isLt; omega⟩
def tileJ (c : Fin 32768) : Fin 256 := ⟨c.val % 256, by omega⟩

/-- Column `c` of half `k` of the 65536 columns: `k·32768 + c`. -/
def halfCol (k : Fin 2) (c : Fin 32768) : Fin 65536 := ⟨k.val * 32768 + c.val, by have := k.isLt; have := c.isLt; omega⟩

/-- The sum over one half of the columns. -/
def halfSum (h1 h2 : Arr2 128 256) (Wout : Arr2 1024 65536) (p : Fin 128) (n : Fin 1024) (k : Fin 2) : EReal :=
  ∑ c : Fin 32768, term h1 h2 Wout p n (halfCol k c)

/-- One entry of the output accumulated half by half from zero, then the bias. -/
def tiledAt (h1 h2 : Arr2 128 256) (Wout : Arr2 1024 65536) (bout : Arr1 1024) (p : Fin 128) (n : Fin 1024) : EReal :=
  (((0 : EReal) + halfSum h1 h2 Wout p n 0) + halfSum h1 h2 Wout p n 1) + bout (ix1 n)

/-- The whole layer, index by index, from the eight argument arrays. -/
def layer (x1 : Arr2 128 2048) (x2 : Arr2 128 1024) (W1 : Arr2 256 2048) (b1 : Arr1 256) (W2 : Arr2 256 1024) (b2 : Arr1 256)
    (Wout : Arr2 1024 65536) (bout : Arr1 1024) : Arr2 128 1024 :=
  fun i => outAt (proj x1 W1 b1) (proj x2 W2 b2) Wout bout (i 0) (i 1)

end Cert.Bilinear

end
-- ==== Proof.PayloadAt.lean ====
/-
  Each value the two kernels store, read at one index (p, q) as an expression in the values they loaded, on the
  extended reals. The two projections' values are a row of the first operand against a row of the second, summed
  over the shared axis, plus the bias row. The accumulation's value is the accumulator plus, over the 32768 columns
  c of one half, the outer product's entry at (p, c / 256, c % 256) times the weight at (n, c): the outer product
  [128, 128, 256] flattened row-major to [128, 32768] reads column c at those two coordinates. The format changes
  are the identity on extended reals, and a product into a zero accumulator is the plain sum.
-/
import proofs.«105507_j35759897706654_1_alg».proof.Proof.Spec
import proofs.«105507_j35759897706654_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Bilinear.Pay

open Cert.KernelIdeal Cert.KernelIdeal.Gen Idealize.ShloMosaic Idealize.ShloMosaic.ValueIdx

section Layout
variable {α : Type}

/-- A [128, 128, 1] array broadcast to [128, 128, 256] reads, at (p, i, j), the operand at (p, i, 0). -/
theorem bcastL (x : S128x128x1.Idx → α) (p i : Fin 128) (j : Fin 256) :
    broadcastTo S128x128x256 x broadcasts_S128x128x1_S128x128x256 (ix3 p i j) = x (ix3 p i (0 : Fin 1)) :=
  broadcastTo_apply x broadcasts_S128x128x1_S128x128x256 (ix3 p i j) (ix3 p i (0 : Fin 1)) (fun a => match a with
    | ⟨0, _⟩ => by show p.val = if (128 : Nat) = 1 then 0 else p.val; rw [if_neg (by decide)]
    | ⟨1, _⟩ => by show i.val = if (128 : Nat) = 1 then 0 else i.val; rw [if_neg (by decide)]
    | ⟨2, _⟩ => by show 0 = if (1 : Nat) = 1 then 0 else j.val; rw [if_pos rfl])

/-- A [128, 1, 256] array broadcast to [128, 128, 256] reads, at (p, i, j), the operand at (p, 0, j). -/
theorem bcastR (x : S128x1x256.Idx → α) (p i : Fin 128) (j : Fin 256) :
    broadcastTo S128x128x256 x broadcasts_S128x1x256_S128x128x256 (ix3 p i j) = x (ix3 p (0 : Fin 1) j) :=
  broadcastTo_apply x broadcasts_S128x1x256_S128x128x256 (ix3 p i j) (ix3 p (0 : Fin 1) j) (fun a => match a with
    | ⟨0, _⟩ => by show p.val = if (128 : Nat) = 1 then 0 else p.val; rw [if_neg (by decide)]
    | ⟨1, _⟩ => by show 0 = if (1 : Nat) = 1 then 0 else i.val; rw [if_pos rfl]
    | ⟨2, _⟩ => by show j.val = if (256 : Nat) = 1 then 0 else j.val; rw [if_neg (by decide)])

/-- A [128, 128] array cast to [128, 128, 1] reads, at (p, i, u), the operand at (p, i). -/
theorem castL (x : S128x128.Idx → α) (p i : Fin 128) (u : Fin 1) :
    shapeCast S128x128x1 x shapeCasts_S128x128_S128x128x1 (ix3 p i u) = x (ix2 p i) :=
  shapeCast_apply x shapeCasts_S128x128_S128x128x1 (ix3 p i u) (ix2 p i) (by
    rw [Shape.rowMajor_val_two, Shape.rowMajor_val_three]
    show p.val * 128 + i.val = (p.val * 128 + i.val) * 1 + u.val
    omega)

/-- A [128, 256] array cast to [128, 1, 256] reads, at (p, u, j), the operand at (p, j). -/
theorem castR (x : S128x256.Idx → α) (p : Fin 128) (u : Fin 1) (j : Fin 256) :
    shapeCast S128x1x256 x shapeCasts_S128x256_S128x1x256 (ix3 p u j) = x (ix2 p j) :=
  shapeCast_apply x shapeCasts_S128x256_S128x1x256 (ix3 p u j) (ix2 p j) (by
    rw [Shape.rowMajor_val_two, Shape.rowMajor_val_three]
    show p.val * 256 + j.val = (p.val * 1 + u.val) * 256 + j.val
    omega)

/-- A [128, 128, 256] array cast to [128, 32768] reads, at (p, c), the operand at (p, c / 256, c % 256). -/
theorem castFlat (x : S128x128x256.Idx → α) (p : Fin 128) (c : Fin 32768) :
    shapeCast S128x32768 x shapeCasts_S128x128x256_S128x32768 (ix2 p c) = x (ix3 p (Cert.Bilinear.tileI c) (Cert.Bilinear.tileJ c)) :=
  shapeCast_apply x shapeCasts_S128x128x256_S128x32768 (ix2 p c) (ix3 p (Cert.Bilinear.tileI c) (Cert.Bilinear.tileJ c)) (by
    rw [Shape.rowMajor_val_three, Shape.rowMajor_val_two]
    show (p.val * 128 + c.val / 256) * 256 + c.val % 256 = p.val * 32768 + c.val
    omega)

end Layout

/-- The dimension numbers of the accumulation's product: [128, 32768] against [128, 32768], both contracted along their
    second axis. -/
abbrev D3 : DotDims S128x32768 S128x32768 S128x128 := dot_S128x32768_S128x32768_S128x128_1_1_0_0_n_n

theorem lhs3_0 (i : S128x128.Idx) (q : D3.contr.Idx) : (D3.lhsIdx i q 0).val = (i 0).val := by
  unfold DotDims.lhsIdx
  rw [dif_neg (show ¬(0 : Fin S128x32768.rank) ∈ D3.lhsBatch by decide), dif_pos (show (0 : Fin S128x32768.rank) ∈ D3.lhsNonContracting by decide)]
  rfl
theorem lhs3_1 (i : S128x128.Idx) (q : D3.contr.Idx) : (D3.lhsIdx i q 1).val = (q ⟨0, by decide⟩).val :=
  D3.lhsIdx_val_of_single rfl i q
theorem rhs3_0 (i : S128x128.Idx) (q : D3.contr.Idx) : (D3.rhsIdx i q 0).val = (i 1).val := by
  unfold DotDims.rhsIdx
  rw [dif_neg (show ¬(0 : Fin S128x32768.rank) ∈ D3.rhsBatch by decide), dif_pos (show (0 : Fin S128x32768.rank) ∈ D3.rhsNonContracting by decide)]
  rfl
theorem rhs3_1 (i : S128x128.Idx) (q : D3.contr.Idx) : (D3.rhsIdx i q 1).val = (q ⟨0, by decide⟩).val :=
  D3.rhsIdx_val_of_single rfl i q

theorem acc_step (v6 : Vec Ideal S128x128 .f32) (v9 : Vec Ideal S128x256 .f32) (v18 : Vec Ideal S128x32768 .f32) (v20 : Vec Ideal S128x128 .f32) (p n : Fin 128) :
    k1_pay2 (F := Ideal) v6 v9 v18 v20 (ix2 p n) = v20 (ix2 p n) + ∑ c : Fin 32768, (v6 (ix2 p (Cert.Bilinear.tileI c)) * v9 (ix2 p (Cert.Bilinear.tileJ c))) * v18 (ix2 n c) := by
  unfold k1_pay2
  refine (congrFun (shapeCast_self _ _) _).trans ?_
  refine (addf_apply _ _ _).trans ?_
  refine congrArg (v20 (ix2 p n) + ·) ?_
  refine (Ideal.matmul_constant_zero_apply D3 none _ _ (ix2 p n)).trans ?_
  rw [← Equiv.sum_comp (contrEquiv1 D3 32768 rfl rfl).symm]
  refine Finset.sum_congr rfl fun c _ => ?_
  have hk := contrEquiv1_symm_val D3 32768 rfl rfl c
  have el : D3.lhsIdx (ix2 p n) ((contrEquiv1 D3 32768 rfl rfl).symm c) = ix2 p c := funext fun a => Fin.ext (by
    match a with
    | ⟨0, _⟩ => exact lhs3_0 _ _
    | ⟨1, _⟩ => exact (lhs3_1 _ _).trans hk)
  have er : D3.rhsIdx (ix2 p n) ((contrEquiv1 D3 32768 rfl rfl).symm c) = ix2 n c := funext fun a => Fin.ext (by
    match a with
    | ⟨0, _⟩ => exact rhs3_0 _ _
    | ⟨1, _⟩ => exact (rhs3_1 _ _).trans hk)
  rw [el, er]
  refine congrArg (· * v18 (ix2 n c)) ?_
  refine (castFlat _ p c).trans ?_
  refine (mulf_apply _ _ _).trans ?_
  congr 1
  · refine (bcastL _ p _ _).trans ((castL _ p _ 0).trans ?_)
    exact congrFun (shapeCast_self v6 _) _
  · refine (bcastR _ p _ _).trans ((castR _ p 0 _).trans ?_)
    exact congrFun (shapeCast_self v9 _) _

/-- The dimension numbers of the first projection's product: [128, 2048] against [256, 2048], both contracted along their
    second axis. -/
abbrev D1 : DotDims S128x2048 S256x2048 S128x256 := dot_S128x2048_S256x2048_S128x256_1_1_0_0_n_n

theorem lhs1_0 (i : S128x256.Idx) (q : D1.contr.Idx) : (D1.lhsIdx i q 0).val = (i 0).val := by
  unfold DotDims.lhsIdx
  rw [dif_neg (show ¬(0 : Fin S128x2048.rank) ∈ D1.lhsBatch by decide), dif_pos (show (0 : Fin S128x2048.rank) ∈ D1.lhsNonContracting by decide)]
  rfl
theorem lhs1_1 (i : S128x256.Idx) (q : D1.contr.Idx) : (D1.lhsIdx i q 1).val = (q ⟨0, by decide⟩).val :=
  D1.lhsIdx_val_of_single rfl i q
theorem rhs1_0 (i : S128x256.Idx) (q : D1.contr.Idx) : (D1.rhsIdx i q 0).val = (i 1).val := by
  unfold DotDims.rhsIdx
  rw [dif_neg (show ¬(0 : Fin S256x2048.rank) ∈ D1.rhsBatch by decide), dif_pos (show (0 : Fin S256x2048.rank) ∈ D1.rhsNonContracting by decide)]
  rfl
theorem rhs1_1 (i : S128x256.Idx) (q : D1.contr.Idx) : (D1.rhsIdx i q 1).val = (q ⟨0, by decide⟩).val :=
  D1.rhsIdx_val_of_single rfl i q

/-- The first projection's payload at (p, q): row p of the first operand against row q of the second, plus the bias row at q. -/
theorem proj_pay1 (v0 : Vec Ideal S128x2048 .f32) (v2 : Vec Ideal S256x2048 .f32) (v5 : Vec Ideal S1x256 .f32) (p : Fin 128) (q : Fin 256) :
    k0_pay1 (F := Ideal) v0 v2 v5 (ix2 p q) = (∑ k : Fin 2048, v0 (ix2 p k) * v2 (ix2 q k)) + v5 (ix2 (0 : Fin 1) q) := by
  unfold k0_pay1
  refine (addf_apply _ _ _).trans ?_
  congr 1
  · refine (Ideal.matmul_constant_zero_apply D1 none _ _ (ix2 p q)).trans ?_
    rw [← Equiv.sum_comp (contrEquiv1 D1 2048 rfl rfl).symm]
    refine Finset.sum_congr rfl fun k _ => ?_
    have hk := contrEquiv1_symm_val D1 2048 rfl rfl k
    have el : D1.lhsIdx (ix2 p q) ((contrEquiv1 D1 2048 rfl rfl).symm k) = ix2 p k := funext fun a => Fin.ext (by
      match a with
      | ⟨0, _⟩ => exact lhs1_0 _ _
      | ⟨1, _⟩ => exact (lhs1_1 _ _).trans hk)
    have er : D1.rhsIdx (ix2 p q) ((contrEquiv1 D1 2048 rfl rfl).symm k) = ix2 q k := funext fun a => Fin.ext (by
      match a with
      | ⟨0, _⟩ => exact rhs1_0 _ _
      | ⟨1, _⟩ => exact (rhs1_1 _ _).trans hk)
    rw [el, er]
    rfl
  · refine (broadcastTo_1b_ab_apply _ broadcasts_S1x256_S128x256 p q).trans ?_
    exact congrFun (shapeCast_self v5 _) _

/-- The dimension numbers of the second projection's product: [128, 1024] against [256, 1024], both contracted along
    their second axis. -/
abbrev D2 : DotDims S128x1024 S256x1024 S128x256 := dot_S128x1024_S256x1024_S128x256_1_1_0_0_n_n

theorem lhs2_0 (i : S128x256.Idx) (q : D2.contr.Idx) : (D2.lhsIdx i q 0).val = (i 0).val := by
  unfold DotDims.lhsIdx
  rw [dif_neg (show ¬(0 : Fin S128x1024.rank) ∈ D2.lhsBatch by decide), dif_pos (show (0 : Fin S128x1024.rank) ∈ D2.lhsNonContracting by decide)]
  rfl
theorem lhs2_1 (i : S128x256.Idx) (q : D2.contr.Idx) : (D2.lhsIdx i q 1).val = (q ⟨0, by decide⟩).val :=
  D2.lhsIdx_val_of_single rfl i q
theorem rhs2_0 (i : S128x256.Idx) (q : D2.contr.Idx) : (D2.rhsIdx i q 0).val = (i 1).val := by
  unfold DotDims.rhsIdx
  rw [dif_neg (show ¬(0 : Fin S256x1024.rank) ∈ D2.rhsBatch by decide), dif_pos (show (0 : Fin S256x1024.rank) ∈ D2.rhsNonContracting by decide)]
  rfl
theorem rhs2_1 (i : S128x256.Idx) (q : D2.contr.Idx) : (D2.rhsIdx i q 1).val = (q ⟨0, by decide⟩).val :=
  D2.rhsIdx_val_of_single rfl i q

/-- The second projection's payload at (p, q): row p of the first operand against row q of the second, plus the bias row at q. -/
theorem proj_pay2 (v9 : Vec Ideal S128x1024 .f32) (v11 : Vec Ideal S256x1024 .f32) (v14 : Vec Ideal S1x256 .f32) (p : Fin 128) (q : Fin 256) :
    k0_pay2 (F := Ideal) v9 v11 v14 (ix2 p q) = (∑ k : Fin 1024, v9 (ix2 p k) * v11 (ix2 q k)) + v14 (ix2 (0 : Fin 1) q) := by
  unfold k0_pay2
  refine (addf_apply _ _ _).trans ?_
  congr 1
  · refine (Ideal.matmul_constant_zero_apply D2 none _ _ (ix2 p q)).trans ?_
    rw [← Equiv.sum_comp (contrEquiv1 D2 1024 rfl rfl).symm]
    refine Finset.sum_congr rfl fun k _ => ?_
    have hk := contrEquiv1_symm_val D2 1024 rfl rfl k
    have el : D2.lhsIdx (ix2 p q) ((contrEquiv1 D2 1024 rfl rfl).symm k) = ix2 p k := funext fun a => Fin.ext (by
      match a with
      | ⟨0, _⟩ => exact lhs2_0 _ _
      | ⟨1, _⟩ => exact (lhs2_1 _ _).trans hk)
    have er : D2.rhsIdx (ix2 p q) ((contrEquiv1 D2 1024 rfl rfl).symm k) = ix2 q k := funext fun a => Fin.ext (by
      match a with
      | ⟨0, _⟩ => exact rhs2_0 _ _
      | ⟨1, _⟩ => exact (rhs2_1 _ _).trans hk)
    rw [el, er]
    rfl
  · refine (broadcastTo_1b_ab_apply _ broadcasts_S1x256_S128x256 p q).trans ?_
    exact congrFun (shapeCast_self v14 _) _

/-- The accumulator's first value is zero everywhere. -/
theorem acc_zero (p n : Fin 128) : k1_pay1 (F := Ideal) (ix2 p n) = 0 := by
  unfold k1_pay1
  refine (congrFun (shapeCast_self _ _) _).trans ?_
  exact Ideal.ofBits_zero_f32

/-- The last payload at (p, n): the accumulator there plus the bias row at n. -/
theorem add_bias (v29 : Vec Ideal S128x128 .f32) (v30 : Vec Ideal S1x128 .f32) (p n : Fin 128) :
    k1_pay3 (F := Ideal) v29 v30 (ix2 p n) = v29 (ix2 p n) + v30 (ix2 (0 : Fin 1) n) := by
  unfold k1_pay3
  refine (addf_apply _ _ _).trans ?_
  refine congrArg (v29 (ix2 p n) + ·) ?_
  refine (broadcastTo_1b_ab_apply _ broadcasts_S1x128_S128x128 p n).trans ?_
  exact congrFun (shapeCast_self v30 _) _

end Cert.Bilinear.Pay

end
-- ==== Proof.SumSplit.lean ====
/-
  The sum over all 65536 columns of the flattened outer product, taken as two halves of 32768 columns added one after
  the other to a zero start, is the sum taken whole: addition of extended reals is commutative and associative, and
  column k·32768 + c of half k runs over every column exactly once. Also how a column of half k splits into its two
  coordinates i·256 + j: the row coordinate moves by k·128, the column coordinate does not move.
-/
import proofs.«105507_j35759897706654_1_alg».proof.Proof.Spec
import Mathlib.Algebra.BigOperators.Fin

noncomputable section

open scoped BigOperators

namespace Cert.Bilinear

open Idealize.ShloMosaic Idealize.ShloMosaic.ValueIdx

/-- Column c of half k has row coordinate k·128 + c / 256. -/
theorem colI_halfCol (k : Fin 2) (c : Fin 32768) : (colI (halfCol k c)).val = k.val * 128 + (tileI c).val := by
  have hc : c.val < 32768 := c.isLt
  show (k.val * 32768 + c.val) / 256 = k.val * 128 + c.val / 256
  omega

/-- Column c of half k has column coordinate c % 256, whatever the half. -/
theorem colJ_halfCol (k : Fin 2) (c : Fin 32768) : colJ (halfCol k c) = tileJ c := by
  refine Fin.ext ?_
  show (k.val * 32768 + c.val) % 256 = c.val % 256
  omega

/-- A sum over 65536 columns is the sum over the first 32768 of them plus the sum over the last 32768. -/
theorem sum_halves {M : Type*} [AddCommMonoid M] (f : Fin 65536 → M) :
    ∑ c : Fin 65536, f c = (∑ c : Fin 32768, f (halfCol 0 c)) + ∑ c : Fin 32768, f (halfCol 1 c) := by
  refine (Fin.sum_univ_add (a := 32768) (b := 32768) f).trans ?_
  refine congrArg₂ (· + ·) (Finset.sum_congr rfl fun c _ => congrArg f (Fin.ext ?_))
    (Finset.sum_congr rfl fun c _ => congrArg f (Fin.ext ?_))
  · show c.val = 0 * 32768 + c.val
    omega
  · show 32768 + c.val = 1 * 32768 + c.val
    omega

/-- The sum accumulated half by half from zero is the sum taken whole. -/
theorem tiledAt_eq_outAt (h1 h2 : Arr2 128 256) (Wout : Arr2 1024 65536) (bout : Arr1 1024) (p : Fin 128) (n : Fin 1024) :
    tiledAt h1 h2 Wout bout p n = outAt h1 h2 Wout bout p n := by
  unfold tiledAt outAt halfSum
  rw [zero_add, sum_halves (fun c => term h1 h2 Wout p n c)]

end Cert.Bilinear

end
-- ==== Proof.KI.AccValue.lean ====
/-
  The second region's result array, index by index, at the exact instance. For a tile `o` and its two steps the
  accumulator goes 0 → 0 + S₀ → (0 + S₀) + S₁ where S_k is the sum over the k-th half of the flattened columns of
  (h1[p, ·] · h2[p, ·]) · Wout[n, ·], and the last step stores that plus the bias at column n = 128·o + n'. So what
  the pipeline writes back at a tile's last step is the tile's block of ONE function of the arrays the region found
  (`G`: the half-by-half sum of the specification), the eight tiles' blocks cover the result array, and the array
  ends holding `G`.
-/
import proofs.«105507_j35759897706654_1_alg».proof.Proof.KI.AccPieces
import proofs.«105507_j35759897706654_1_alg».proof.Proof.KI.AccBlocks
import proofs.«105507_j35759897706654_1_alg».proof.Proof.PayloadAt
import proofs.«105507_j35759897706654_1_alg».proof.Proof.SumSplit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Bilinear
open scoped BigOperators

variable (V : (c : Dev nD) → (b : Ref sig .tc) → Buf (Elt Ideal) ((c : Thread nD τ).loc b))

/-- The arrays the region finds, as arrays of extended reals. -/
abbrev H1 (c : Dev nD) : Arr2 128 256 := (V c main_v3_0 : S128x256.Idx → EReal)
abbrev H2 (c : Dev nD) : Arr2 128 256 := (V c main_v3_1 : S128x256.Idx → EReal)
abbrev WO (c : Dev nD) : Arr2 1024 65536 := (V c main_arg6 : S1024x65536.Idx → EReal)
/-- The one-row bias array as a vector. -/
def biasRow (c : Dev nD) : Arr1 1024 := fun j => (V c main_v2 : S1x1024.Idx → EReal) (ix2 (0 : Fin 1) (j 0))

/-- What the result array ends holding: the half-by-half sum, index by index. -/
def G (c : Dev nD) : Buf (Elt Ideal) ((c : Thread nD τ).loc main_v4) :=
  fun i => tiledAt (H1 V c) (H2 V c) (WO V c) (biasRow V c) (i 0) (i 1)

/-- A step's product summed over its half of the columns is that half-sum of the specification: at point `t` the
    step is `k = t % 2` and the tile's columns are `n = 128·(t/2) + n'`. Stated over the three blocks as variables. -/
theorem step_sum (c : Dev nD) (t : Fin cfg1.N) (k : Fin 2) (hk : k.val = t.val % 2) (p n' : Fin 128) (n : Fin 1024)
    (hn : n.val = (t.val / 2) * 128 + n'.val)
    (x0 x1 : Vec Ideal S128x256 .f32) (x2 : Vec Ideal S128x32768 .f32)
    (hx0 : x0 = iblk1 V c 0 t) (hx1 : x1 = iblk1 V c 1 t) (hx2 : x2 = iblk1 V c 2 t) :
    (∑ cc : Fin 32768, ((View.ld x0 (rOff (grid1.coords t)) : Vec Ideal S128x128 .f32) (ix2 p (tileI cc))
        * x1 (ix2 p (tileJ cc))) * x2 (ix2 n' cc))
      = halfSum (H1 V c) (H2 V c) (WO V c) p n k := by
  unfold halfSum term
  refine Finset.sum_congr rfl fun cc _ => ?_
  have e1 : (View.ld x0 (rOff (grid1.coords t)) : Vec Ideal S128x128 .f32) (ix2 p (tileI cc)) = H1 V c (ix2 p (colI (halfCol k cc))) :=
    (ld_h1 t x0 p (tileI cc) (colI (halfCol k cc)) (by rw [colI_halfCol, hk])).trans (by rw [hx0]; exact blk_h1 V c t p _)
  have e2 : x1 (ix2 p (tileJ cc)) = H2 V c (ix2 p (colJ (halfCol k cc))) := by
    rw [colJ_halfCol, hx1]; exact blk_h2 V c t p _
  have e3 : x2 (ix2 n' cc) = WO V c (ix2 n (halfCol k cc)) := by
    rw [hx2]; exact blk_w V c t n' cc n (halfCol k cc) hn (by show k.val * 32768 + cc.val = _; rw [hk])
  rw [e1, e2, e3]

/-- The output block's element after a tile's last step is the specification's half-by-half sum at the tile's column. -/
theorem outB_at (c : Dev nD) (t : Fin cfg1.N) (h : t.val % 2 = 1) (p n' : Fin 128) (n : Fin 1024)
    (hn : n.val = (t.val / 2) * 128 + n'.val) :
    outB V c t h (ix2 p n') = tiledAt (H1 V c) (H2 V c) (WO V c) (biasRow V c) p n := by
  have hp : (prevPt t).val = t.val - 1 := rfl
  unfold outB
  rw [outB_eq]
  unfold tiledAt
  refine (Pay.add_bias _ _ p n').trans ?_
  refine congrArg₂ (· + ·) ?_ (blk_b V c t n' n hn)
  refine (Pay.acc_step _ _ _ _ p n').trans ?_
  refine congrArg₂ (· + ·) ?_ (step_sum V c t 1 (by show 1 = t.val % 2; omega) p n' n hn _ _ _ rfl rfl rfl)
  unfold accA
  rw [soutA_eq]
  refine (Pay.acc_step _ _ _ _ p n').trans ?_
  exact congrArg₂ (· + ·) (Pay.acc_zero p n')
    (step_sum V c (prevPt t) 0 (by show 0 = (prevPt t).val % 2; rw [hp]; omega) p n' n (by rw [hp, hn]; omega) _ _ _ rfl rfl rfl)

/-- An index of the output block at point `t`, in the result array. -/
theorem emb4 (c : Dev nD) (t : Fin cfg1.N) (p n' : Fin 128) (n : Fin 1024) (hn : n.val = (t.val / 2) * 128 + n'.val) :
    (((cfg1.win 4).blk t).view.emb (ix2 p n') : S128x1024.Idx) = ix2 p n := by
  obtain ⟨-, -, -, -, -, -, -, -, e0, e1, -⟩ := idx1 t
  funext a; apply Fin.ext
  match a with
  | ⟨0, _⟩ => show win1_4.index t (0 : Fin 2) * 128 + 1 * p.val = p.val; rw [e0]; omega
  | ⟨1, _⟩ => show win1_4.index t (1 : Fin 2) * 128 + 1 * n'.val = n.val; rw [e1, hn]; omega

/-- WHAT A TILE'S LAST STEP WRITES BACK is the tile's block of `G`. -/
theorem flushed_eq (c : Dev nD) (t : Fin cfg1.N) (hf : (cfg1.win 4).flush t = true) :
    (dat1 (F := Ideal) V c).flushed 4 t = ((cfg1.win 4).blk t).view.read (Elt Ideal) (G V c) := by
  have h1 : t.val % 2 = 1 := (flush1_4 t).mp hf
  have hN : t.val < 16 := lt_of_lt_of_eq t.isLt (show cfg1.N = 16 from N_1)
  show (cfg1.win 4).cut (grid1.coords t) ((dat1 (F := Ideal) V c).after 4 t) = _
  rw [after1_4, outAt_odd V c t h1]
  funext j
  obtain ⟨p, n', rfl⟩ : ∃ (p n' : Fin 128), j = ix2 p n' := ⟨j 0, j 1, eq_ix2 j⟩
  rw [View.read_apply]
  show outB V c t h1 (ix2 p n') = G V c (((cfg1.win 4).blk t).view.emb (ix2 p n'))
  rw [emb4 c t p n' ⟨(t.val / 2) * 128 + n'.val, by have := n'.isLt; omega⟩ rfl]
  exact outB_at V c t h1 p n' _ rfl

/-- An index of the result array is in point `t`'s block iff each coordinate is in the block's range. -/
theorem mem_blk4 (t : Fin cfg1.N) (i : S128x1024.Idx) :
    i ∈ ((cfg1.win 4).blk t).view.set ↔ ∀ a : Fin 2, win1_4.index t a * S128x128.size a ≤ (i a).val ∧ (i a).val < win1_4.index t a * S128x128.size a + S128x128.size a := by
  show i ∈ ((View.whole main_v4).slice (win1_4.rect t)).set ↔ _
  rw [View.set_slice_whole, Rect.mem_set_unit]
  exact Iff.rfl

/-- Every index of the result array is in the block some tile's last step writes back. -/
theorem cover4 (i : S128x1024.Idx) : ∃ t : Fin cfg1.N, (cfg1.win 4).flush t = true ∧ i ∈ ((cfg1.win 4).blk t).view.set := by
  have hN : cfg1.N = 16 := N_1
  have hi0 : (i 0).val < 128 := (i 0).isLt
  have hi1 : (i 1).val < 1024 := (i 1).isLt
  let t : Fin cfg1.N := ⟨2 * ((i 1).val / 128) + 1, by omega⟩
  have htv : t.val = 2 * ((i 1).val / 128) + 1 := rfl
  obtain ⟨-, -, -, -, -, -, -, -, e0, e1, -⟩ := idx1 t
  refine ⟨t, (flush1_4 t).mpr (by omega), ?_⟩
  rw [mem_blk4]
  intro a
  match a with
  | ⟨0, _⟩ => show win1_4.index t (0 : Fin 2) * 128 ≤ (i 0).val ∧ (i 0).val < win1_4.index t (0 : Fin 2) * 128 + 128; rw [e0]; omega
  | ⟨1, _⟩ => show win1_4.index t (1 : Fin 2) * 128 ≤ (i 1).val ∧ (i 1).val < win1_4.index t (1 : Fin 2) * 128 + 128; rw [e1, htv]; omega

/-- THE RESULT ARRAY after the region: `G` of the arrays the region found. -/
theorem final_out (c : Dev nD) : (dat1 (F := Ideal) V c).arrAt 4 cfg1.N = G V c :=
  (dat1 (F := Ideal) V c).arrAt_eq_of_cover 4 (G V c) (fun t hf => flushed_eq V c t hf) (fun i => cover4 i)

end Cert.KernelIdeal.Fr

end
-- ==== Proof.KI.ProjValue.lean ====
/-
  What the first region leaves in its two output arrays, as functions of the arrays the region finds. The region has
  one grid point and every window's block is the whole of its array, so each block read is the array at the same
  index, the one write-back of an output is the body's stored value read whole, and that one block covers the output.
  With the stored value read at an index (a row of the input against a row of the weight, plus the bias row), each
  output array ends as the projection of the input, weight and bias arrays: at (p, q), Σ_k x[p, k] · W[q, k] + b[0, q].
-/
import proofs.«105507_j35759897706654_1_alg».proof.Proof.KI.Proj
import proofs.«105507_j35759897706654_1_alg».proof.Proof.PayloadAt
import Idealize.ShloMosaic.Lib.Pipeline.Value
import Idealize.ShloMosaic.Lib.ValueIdx

set_option maxRecDepth 16384

noncomputable section

open scoped BigOperators

namespace Cert.KernelIdeal.FrV

open Cert.KernelIdeal Cert.KernelIdeal.Gen Cert.KernelIdeal.Fr Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The one point's blocks are the whole arrays

At the region's one point every window's block index is zero on both axes, decided over the grid. -/

theorem idx0_0 : ∀ t : Fin cfg0.N, win0_0.index t 0 = 0 ∧ win0_0.index t 1 = 0 :=
  (by decide +kernel : ∀ t : Fin grid0.N, _)
theorem idx0_1 : ∀ t : Fin cfg0.N, win0_1.index t 0 = 0 ∧ win0_1.index t 1 = 0 :=
  (by decide +kernel : ∀ t : Fin grid0.N, _)
theorem idx0_2 : ∀ t : Fin cfg0.N, win0_2.index t 0 = 0 ∧ win0_2.index t 1 = 0 :=
  (by decide +kernel : ∀ t : Fin grid0.N, _)
theorem idx0_3 : ∀ t : Fin cfg0.N, win0_3.index t 0 = 0 ∧ win0_3.index t 1 = 0 :=
  (by decide +kernel : ∀ t : Fin grid0.N, _)
theorem idx0_4 : ∀ t : Fin cfg0.N, win0_4.index t 0 = 0 ∧ win0_4.index t 1 = 0 :=
  (by decide +kernel : ∀ t : Fin grid0.N, _)
theorem idx0_5 : ∀ t : Fin cfg0.N, win0_5.index t 0 = 0 ∧ win0_5.index t 1 = 0 :=
  (by decide +kernel : ∀ t : Fin grid0.N, _)
theorem idx0_6 : ∀ t : Fin cfg0.N, win0_6.index t 0 = 0 ∧ win0_6.index t 1 = 0 :=
  (by decide +kernel : ∀ t : Fin grid0.N, _)
theorem idx0_7 : ∀ t : Fin cfg0.N, win0_7.index t 0 = 0 ∧ win0_7.index t 1 = 0 :=
  (by decide +kernel : ∀ t : Fin grid0.N, _)

theorem iblk0_0_apply (c : Dev nD) (t : Fin cfg0.N) (p : Fin 128) (k : Fin 2048) :
    (iblk0 V c 0 t : Vec Ideal S128x2048 .f32) (ix2 p k) = (V c main_arg0 : S128x2048.Idx → EReal) (ix2 p k) := by
  have hi := idx0_0 t
  unfold iblk0
  rw [View.read_apply]
  show V c main_arg0 _ = V c main_arg0 _
  congr 1
  funext a
  apply Fin.ext
  match a with
  | ⟨0, _⟩ => show win0_0.index t 0 * 128 + 1 * p.val = p.val; rw [hi.1]; omega
  | ⟨1, _⟩ => show win0_0.index t 1 * 2048 + 1 * k.val = k.val; rw [hi.2]; omega

theorem iblk0_1_apply (c : Dev nD) (t : Fin cfg0.N) (q : Fin 256) (k : Fin 2048) :
    (iblk0 V c 1 t : Vec Ideal S256x2048 .f32) (ix2 q k) = (V c main_arg2 : S256x2048.Idx → EReal) (ix2 q k) := by
  have hi := idx0_1 t
  unfold iblk0
  rw [View.read_apply]
  show V c main_arg2 _ = V c main_arg2 _
  congr 1
  funext a
  apply Fin.ext
  match a with
  | ⟨0, _⟩ => show win0_1.index t 0 * 256 + 1 * q.val = q.val; rw [hi.1]; omega
  | ⟨1, _⟩ => show win0_1.index t 1 * 2048 + 1 * k.val = k.val; rw [hi.2]; omega

theorem iblk0_2_apply (c : Dev nD) (t : Fin cfg0.N) (u : Fin 1) (q : Fin 256) :
    (iblk0 V c 2 t : Vec Ideal S1x256 .f32) (ix2 u q) = (V c main_v0 : S1x256.Idx → EReal) (ix2 u q) := by
  have hi := idx0_2 t
  unfold iblk0
  rw [View.read_apply]
  show V c main_v0 _ = V c main_v0 _
  congr 1
  funext a
  apply Fin.ext
  match a with
  | ⟨0, _⟩ => show win0_2.index t 0 * 1 + 1 * u.val = u.val; rw [hi.1]; omega
  | ⟨1, _⟩ => show win0_2.index t 1 * 256 + 1 * q.val = q.val; rw [hi.2]; omega

theorem iblk0_3_apply (c : Dev nD) (t : Fin cfg0.N) (p : Fin 128) (k : Fin 1024) :
    (iblk0 V c 3 t : Vec Ideal S128x1024 .f32) (ix2 p k) = (V c main_arg1 : S128x1024.Idx → EReal) (ix2 p k) := by
  have hi := idx0_3 t
  unfold iblk0
  rw [View.read_apply]
  show V c main_arg1 _ = V c main_arg1 _
  congr 1
  funext a
  apply Fin.ext
  match a with
  | ⟨0, _⟩ => show win0_3.index t 0 * 128 + 1 * p.val = p.val; rw [hi.1]; omega
  | ⟨1, _⟩ => show win0_3.index t 1 * 1024 + 1 * k.val = k.val; rw [hi.2]; omega

theorem iblk0_4_apply (c : Dev nD) (t : Fin cfg0.N) (q : Fin 256) (k : Fin 1024) :
    (iblk0 V c 4 t : Vec Ideal S256x1024 .f32) (ix2 q k) = (V c main_arg4 : S256x1024.Idx → EReal) (ix2 q k) := by
  have hi := idx0_4 t
  unfold iblk0
  rw [View.read_apply]
  show V c main_arg4 _ = V c main_arg4 _
  congr 1
  funext a
  apply Fin.ext
  match a with
  | ⟨0, _⟩ => show win0_4.index t 0 * 256 + 1 * q.val = q.val; rw [hi.1]; omega
  | ⟨1, _⟩ => show win0_4.index t 1 * 1024 + 1 * k.val = k.val; rw [hi.2]; omega

theorem iblk0_5_apply (c : Dev nD) (t : Fin cfg0.N) (u : Fin 1) (q : Fin 256) :
    (iblk0 V c 5 t : Vec Ideal S1x256 .f32) (ix2 u q) = (V c main_v1 : S1x256.Idx → EReal) (ix2 u q) := by
  have hi := idx0_5 t
  unfold iblk0
  rw [View.read_apply]
  show V c main_v1 _ = V c main_v1 _
  congr 1
  funext a
  apply Fin.ext
  match a with
  | ⟨0, _⟩ => show win0_5.index t 0 * 1 + 1 * u.val = u.val; rw [hi.1]; omega
  | ⟨1, _⟩ => show win0_5.index t 1 * 256 + 1 * q.val = q.val; rw [hi.2]; omega

/-! ## The two outputs -/

/-- The projection of an input, a weight and a bias row: at (p, q), row p of the input against row q of the weight,
    summed over the shared axis, plus the bias row at q. -/
abbrev projOf {K : Nat} (x : (⟨2, ![128, K]⟩ : Shape).Idx → EReal) (W : (⟨2, ![256, K]⟩ : Shape).Idx → EReal) (b : S1x256.Idx → EReal) :
    S128x256.Idx → EReal := fun i =>
  (∑ k : Fin K, x (ix2 (i 0) k) * W (ix2 (i 1) k)) + b (ix2 (0 : Fin 1) (i 1))

/-- What the one point writes back to the h1 output is the whole of the projection of the arrays as the region finds them. -/
theorem flushed6_eq (c : Dev nD) (t : Fin cfg0.N) :
    (dat0 (F := Ideal) V c).flushed 6 t = ((cfg0.win 6).blk t).view.read (Elt Ideal) (projOf (V c main_arg0) (V c main_arg2) (V c main_v0)) := by
  show (cfg0.win 6).cut (grid0.coords t) ((dat0 V c).after 6 t) = _
  rw [after0_6]
  unfold outH1
  rw [View.canon_unit_zero hz]
  simp only [View.ld_unit_zero (S := S128x2048) hz, View.ld_unit_zero (S := S256x2048) hz, View.ld_unit_zero (S := S1x256) hz]
  funext j
  obtain ⟨p, q, rfl⟩ : ∃ (p : Fin 128) (q : Fin 256), j = ix2 p q := ⟨j 0, j 1, eq_ix2 j⟩
  have hi := idx0_6 t
  have he : ((cfg0.win 6).blk t).view.emb (ix2 p q) = ix2 p q := by
    funext a
    apply Fin.ext
    match a with
    | ⟨0, _⟩ => show win0_6.index t 0 * 128 + 1 * p.val = p.val; rw [hi.1]; omega
    | ⟨1, _⟩ => show win0_6.index t 1 * 256 + 1 * q.val = q.val; rw [hi.2]; omega
  show k0_pay1 (F := Ideal) (iblk0 V c 0 t) (iblk0 V c 1 t) (iblk0 V c 2 t) (ix2 p q)
    = projOf (V c main_arg0) (V c main_arg2) (V c main_v0) (((cfg0.win 6).blk t).view.emb (ix2 p q))
  rw [he, Cert.Bilinear.Pay.proj_pay1]
  exact congrArg₂ (· + ·)
    (Finset.sum_congr rfl fun k _ => congrArg₂ (· * ·) (iblk0_0_apply V c t p k) (iblk0_1_apply V c t q k))
    (iblk0_2_apply V c t 0 q)

/-- The h1 output array after the region: the projection of the arrays as the region finds them (the one point's block is
    the whole array). -/
theorem final_h1 (c : Dev nD) :
    (dat0 (F := Ideal) V c).arrAt 6 cfg0.N = projOf (V c main_arg0) (V c main_arg2) (V c main_v0) :=
  (dat0 V c).arrAt_eq_of_cover 6 _ (fun t _ => flushed6_eq V c t) fun i =>
    ⟨t0_0, flush0_6 t0_0, by
      show i ∈ ((View.whole main_v3_0).slice (win0_6.rect t0_0)).set
      rw [View.set_slice_whole, Rect.mem_set_unit]
      intro a
      have h0 : (i 0 : Nat) < 128 := (i 0).isLt
      have h1 : (i 1 : Nat) < 256 := (i 1).isLt
      match a with
      | ⟨0, _⟩ =>
        show win0_6.index t0_0 0 * win0_6.size 0 ≤ (i 0 : Nat) ∧ (i 0 : Nat) < win0_6.index t0_0 0 * win0_6.size 0 + win0_6.xsize (grid0.coords t0_0) 0
        rw [show win0_6.index t0_0 0 * win0_6.size 0 = 0 from by decide +kernel, show win0_6.xsize (grid0.coords t0_0) 0 = 128 from by decide +kernel]
        omega
      | ⟨1, _⟩ =>
        show win0_6.index t0_0 1 * win0_6.size 1 ≤ (i 1 : Nat) ∧ (i 1 : Nat) < win0_6.index t0_0 1 * win0_6.size 1 + win0_6.xsize (grid0.coords t0_0) 1
        rw [show win0_6.index t0_0 1 * win0_6.size 1 = 0 from by decide +kernel, show win0_6.xsize (grid0.coords t0_0) 1 = 256 from by decide +kernel]
        omega⟩

/-- What the one point writes back to the h2 output is the whole of the projection of the arrays as the region finds them. -/
theorem flushed7_eq (c : Dev nD) (t : Fin cfg0.N) :
    (dat0 (F := Ideal) V c).flushed 7 t = ((cfg0.win 7).blk t).view.read (Elt Ideal) (projOf (V c main_arg1) (V c main_arg4) (V c main_v1)) := by
  show (cfg0.win 7).cut (grid0.coords t) ((dat0 V c).after 7 t) = _
  rw [after0_7]
  unfold outH2
  rw [View.canon_unit_zero hz]
  simp only [View.ld_unit_zero (S := S128x1024) hz, View.ld_unit_zero (S := S256x1024) hz, View.ld_unit_zero (S := S1x256) hz]
  funext j
  obtain ⟨p, q, rfl⟩ : ∃ (p : Fin 128) (q : Fin 256), j = ix2 p q := ⟨j 0, j 1, eq_ix2 j⟩
  have hi := idx0_7 t
  have he : ((cfg0.win 7).blk t).view.emb (ix2 p q) = ix2 p q := by
    funext a
    apply Fin.ext
    match a with
    | ⟨0, _⟩ => show win0_7.index t 0 * 128 + 1 * p.val = p.val; rw [hi.1]; omega
    | ⟨1, _⟩ => show win0_7.index t 1 * 256 + 1 * q.val = q.val; rw [hi.2]; omega
  show k0_pay2 (F := Ideal) (iblk0 V c 3 t) (iblk0 V c 4 t) (iblk0 V c 5 t) (ix2 p q)
    = projOf (V c main_arg1) (V c main_arg4) (V c main_v1) (((cfg0.win 7).blk t).view.emb (ix2 p q))
  rw [he, Cert.Bilinear.Pay.proj_pay2]
  exact congrArg₂ (· + ·)
    (Finset.sum_congr rfl fun k _ => congrArg₂ (· * ·) (iblk0_3_apply V c t p k) (iblk0_4_apply V c t q k))
    (iblk0_5_apply V c t 0 q)

/-- The h2 output array after the region: the projection of the arrays as the region finds them (the one point's block is
    the whole array). -/
theorem final_h2 (c : Dev nD) :
    (dat0 (F := Ideal) V c).arrAt 7 cfg0.N = projOf (V c main_arg1) (V c main_arg4) (V c main_v1) :=
  (dat0 V c).arrAt_eq_of_cover 7 _ (fun t _ => flushed7_eq V c t) fun i =>
    ⟨t0_0, flush0_7 t0_0, by
      show i ∈ ((View.whole main_v3_1).slice (win0_7.rect t0_0)).set
      rw [View.set_slice_whole, Rect.mem_set_unit]
      intro a
      have h0 : (i 0 : Nat) < 128 := (i 0).isLt
      have h1 : (i 1 : Nat) < 256 := (i 1).isLt
      match a with
      | ⟨0, _⟩ =>
        show win0_7.index t0_0 0 * win0_7.size 0 ≤ (i 0 : Nat) ∧ (i 0 : Nat) < win0_7.index t0_0 0 * win0_7.size 0 + win0_7.xsize (grid0.coords t0_0) 0
        rw [show win0_7.index t0_0 0 * win0_7.size 0 = 0 from by decide +kernel, show win0_7.xsize (grid0.coords t0_0) 0 = 128 from by decide +kernel]
        omega
      | ⟨1, _⟩ =>
        show win0_7.index t0_0 1 * win0_7.size 1 ≤ (i 1 : Nat) ∧ (i 1 : Nat) < win0_7.index t0_0 1 * win0_7.size 1 + win0_7.xsize (grid0.coords t0_0) 1
        rw [show win0_7.index t0_0 1 * win0_7.size 1 = 0 from by decide +kernel, show win0_7.xsize (grid0.coords t0_0) 1 = 256 from by decide +kernel]
        omega⟩

end Cert.KernelIdeal.FrV

end
-- ==== Proof.KI.HostReads.lean ====
/-
  The three reshapes the host does before the first region, read at an index: each bias vector of n entries viewed as
  a 1 × n array holds, at (0, j), the vector's entry j; and the host stretch writes only those three arrays, so every
  other array is as launched.
-/
import proofs.«105507_j35759897706654_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.FrV

open Cert.KernelIdeal Cert.KernelIdeal.Gen Idealize.ShloMosaic Idealize.ShloMosaic.TcCoe Idealize.ShloMosaic.ValueIdx Idealize.SL.Sem

variable {F : FTy → Type} [FloatOps F] (m : (ℓ : Loc nD τ sig) → Buf (Elt F) ℓ)

/-- The first bias as a 1 × 256 array, at (0, q), is the bias at q. -/
theorem host_v0 (c : Dev nD) (q : Fin 256) :
    (Gen.V1 m c main_v0 : S1x256.Idx → Elt F .f32) (ix2 (0 : Fin 1) q) = (m ((c : Thread nD τ).loc main_arg3) : S256.Idx → Elt F .f32) (ix1 q) := by
  have e : (Gen.V1 m c main_v0 : S1x256.Idx → Elt F .f32)
      = shapeCast S1x256 (m ((c : Thread nD τ).loc main_arg3) : S256.Idx → Elt F .f32) shapeCasts_S256_S1x256 := by
    dsimp only [Gen.V1, Gen.V0, Gen.hostOps0]
    after_results
    rfl
  exact (congrFun e _).trans (shapeCast_a_1a_apply _ shapeCasts_S256_S1x256 (0 : Fin 1) q)

/-- The second bias as a 1 × 256 array, at (0, q), is the bias at q. -/
theorem host_v1 (c : Dev nD) (q : Fin 256) :
    (Gen.V1 m c main_v1 : S1x256.Idx → Elt F .f32) (ix2 (0 : Fin 1) q) = (m ((c : Thread nD τ).loc main_arg5) : S256.Idx → Elt F .f32) (ix1 q) := by
  have e : (Gen.V1 m c main_v1 : S1x256.Idx → Elt F .f32)
      = shapeCast S1x256 (m ((c : Thread nD τ).loc main_arg5) : S256.Idx → Elt F .f32) shapeCasts_S256_S1x256 := by
    dsimp only [Gen.V1, Gen.V0, Gen.hostOps0]
    after_results
    rfl
  exact (congrFun e _).trans (shapeCast_a_1a_apply _ shapeCasts_S256_S1x256 (0 : Fin 1) q)

/-- The output bias as a 1 × 1024 array, at (0, n), is the bias at n. -/
theorem host_v2 (c : Dev nD) (n : Fin 1024) :
    (Gen.V1 m c main_v2 : S1x1024.Idx → Elt F .f32) (ix2 (0 : Fin 1) n) = (m ((c : Thread nD τ).loc main_arg7) : S1024.Idx → Elt F .f32) (ix1 n) := by
  have e : (Gen.V1 m c main_v2 : S1x1024.Idx → Elt F .f32)
      = shapeCast S1x1024 (m ((c : Thread nD τ).loc main_arg7) : S1024.Idx → Elt F .f32) shapeCasts_S1024_S1x1024 := by
    dsimp only [Gen.V1, Gen.V0, Gen.hostOps0]
    after_results
    rfl
  exact (congrFun e _).trans (shapeCast_a_1a_apply _ shapeCasts_S1024_S1x1024 (0 : Fin 1) n)

/-- The host stretch leaves every array it does not write as launched. -/
theorem host_arg (c : Dev nD) (r : Ref sig .tc) (h : r ∉ Gen.hostOps0_W) : Gen.V1 m c r = m ((c : Thread nD τ).loc r) :=
  (Gen.V1_of m c r h).trans rfl

end Cert.KernelIdeal.FrV

end
-- ==== Proof.KI.Final.lean ====
/-
  The idealized kernel's result, from the launch memory. The second region finds: the two projections the first region
  wrote (each its closed form of the arguments, the bias rows read through the host reshapes), the weight array as
  launched, and the output bias as the host reshape left it. Its result array is the half-by-half sum of those, which
  is the whole sum (addition of extended reals is commutative and associative): the specification's `layer` of the
  eight argument arrays. The run's post is read at the result buffer and at each argument.
-/
import proofs.«105507_j35759897706654_1_alg».proof.Proof.KI.Run
import proofs.«105507_j35759897706654_1_alg».proof.Proof.KI.AccValue
import proofs.«105507_j35759897706654_1_alg».proof.Proof.KI.ProjValue
import proofs.«105507_j35759897706654_1_alg».proof.Proof.KI.HostReads
import proofs.«105507_j35759897706654_1_alg».proof.Proof.SumSplit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Bilinear
open scoped BigOperators

variable (m : (ℓ : Loc nD τ sig) → Buf (Elt Ideal) ℓ) (ρ : Dev nD → PrngReg)

/-- The eight argument arrays on core `c`, as arrays of extended reals. -/
abbrev aX1 (c : Dev nD) : Arr2 128 2048 := m ((c : Thread nD τ).loc main_arg0)
abbrev aX2 (c : Dev nD) : Arr2 128 1024 := m ((c : Thread nD τ).loc main_arg1)
abbrev aW1 (c : Dev nD) : Arr2 256 2048 := m ((c : Thread nD τ).loc main_arg2)
abbrev aB1 (c : Dev nD) : Arr1 256 := m ((c : Thread nD τ).loc main_arg3)
abbrev aW2 (c : Dev nD) : Arr2 256 1024 := m ((c : Thread nD τ).loc main_arg4)
abbrev aB2 (c : Dev nD) : Arr1 256 := m ((c : Thread nD τ).loc main_arg5)
abbrev aWo (c : Dev nD) : Arr2 1024 65536 := m ((c : Thread nD τ).loc main_arg6)
abbrev aBo (c : Dev nD) : Arr1 1024 := m ((c : Thread nD τ).loc main_arg7)

/-- A projection with its bias given as a one-row array is the projection with the bias vector, when the row is the
    vector. -/
theorem projOf_eq {K : Nat} (x : Arr2 128 K) (W : Arr2 256 K) (b : S1x256.Idx → EReal) (b' : Arr1 256)
    (hb : ∀ q : Fin 256, b (ix2 (0 : Fin 1) q) = b' (ix1 q)) : FrV.projOf x W b = proj x W b' := by
  funext i
  unfold FrV.projOf proj projAt
  exact congrArg₂ (· + ·) rfl (hb (i 1))

/-- The first projection as the second region finds it. -/
theorem h1_eq (c : Dev nD) : H1 (V2 m) c = proj (aX1 m c) (aW1 m c) (aB1 m c) := by
  have e : H1 (V2 m) c = FrV.projOf (V1 m c main_arg0) (V1 m c main_arg2) (V1 m c main_v0) :=
    (W2_arr m c 6).trans (FrV.final_h1 (V1 m) c)
  rw [e, show V1 m c main_arg0 = m ((c : Thread nD τ).loc main_arg0) from Gen.V1_of m c main_arg0 (by decide),
    show V1 m c main_arg2 = m ((c : Thread nD τ).loc main_arg2) from Gen.V1_of m c main_arg2 (by decide)]
  exact projOf_eq _ _ _ _ (FrV.host_v0 m c)

/-- The second projection as the second region finds it. -/
theorem h2_eq (c : Dev nD) : H2 (V2 m) c = proj (aX2 m c) (aW2 m c) (aB2 m c) := by
  have e : H2 (V2 m) c = FrV.projOf (V1 m c main_arg1) (V1 m c main_arg4) (V1 m c main_v1) :=
    (W2_arr m c 7).trans (FrV.final_h2 (V1 m) c)
  rw [e, show V1 m c main_arg1 = m ((c : Thread nD τ).loc main_arg1) from Gen.V1_of m c main_arg1 (by decide),
    show V1 m c main_arg4 = m ((c : Thread nD τ).loc main_arg4) from Gen.V1_of m c main_arg4 (by decide)]
  exact projOf_eq _ _ _ _ (FrV.host_v1 m c)

/-- The weight array as the second region finds it: as launched. -/
theorem wo_eq (c : Dev nD) : WO (V2 m) c = aWo m c :=
  (W2_of_ne m c main_arg6 (by decide)).trans (Gen.V1_of m c main_arg6 (by decide))

/-- The output bias as the second region finds it: the argument vector. -/
theorem bias_eq (c : Dev nD) : biasRow (V2 m) c = aBo m c := by
  funext j
  unfold biasRow
  have e : (V2 m c main_v2 : S1x1024.Idx → EReal) = V1 m c main_v2 := W2_of_ne m c main_v2 (by decide)
  rw [e]
  exact (FrV.host_v2 m c (j 0)).trans (congrArg _ (eq_ix1 j).symm)

/-- One entry of what the second region leaves: the half-by-half sum of what it found is the whole sum over the
    projections of the arguments. -/
theorem result_at (c : Dev nD) (p : Fin 128) (n : Fin 1024) :
    tiledAt (H1 (V2 m) c) (H2 (V2 m) c) (WO (V2 m) c) (biasRow (V2 m) c) p n
      = Cert.Bilinear.outAt (proj (aX1 m c) (aW1 m c) (aB1 m c)) (proj (aX2 m c) (aW2 m c) (aB2 m c)) (aWo m c) (aBo m c) p n := by
  rw [tiledAt_eq_outAt, h1_eq, h2_eq, wo_eq, bias_eq]

/-- The result buffer at the last boundary: the specification's layer of the arguments. -/
theorem result_eq (c : Dev nD) :
    W3 m c (Proc.devRef .tc main_v4) = layer (aX1 m c) (aX2 m c) (aW1 m c) (aB1 m c) (aW2 m c) (aB2 m c) (aWo m c) (aBo m c) := by
  refine (W3_arr m c 4).trans ((final_out (V2 m) c).trans ?_)
  funext i
  exact result_at m c (i 0) (i 1)

/-- THE RUN, READ: the result buffer ends at the layer of the arguments, the arguments unchanged. -/
theorem value_run : θ_run defs (onTc (τ := τ) (main (F := Ideal))) ⟨m, fun _ => 0, ρ⟩ (fun r => ∀ c : Dev nD,
      r.2.mem ((c.tc : Thread nD τ).loc main_v4) = layer (aX1 m c) (aX2 m c) (aW1 m c) (aB1 m c) (aW2 m c) (aB2 m c) (aWo m c) (aBo m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v4 (by decide))).trans (result_eq m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c)⟩)
    (run m ρ)

end Cert.KernelIdeal.Fr

end
-- ==== Proof.RefSpec.lean ====
/-
  The reference program's result, index by index, is the bilinear layer of Spec.lean: its last stage at (p, n) is the
  sum over the 65536 columns c of the flattened outer product at (p, c) times the output weight at (n, c), plus the
  output bias at n. The reshape [128, 256, 256] → [128, 65536] reads column c at (c / 256, c % 256), the two
  broadcasts of the projections read them at (p, c / 256) and (p, c % 256), and each projection at (p, q) is the row p
  of its input against the row q of its weight, plus its bias at q. Every step is the stage's reading at an index;
  the index arithmetic is linear.
-/
import proofs.«105507_j35759897706654_1_alg».proof.Proof.Spec
import proofs.«105507_j35759897706654_1_alg».proof.Proof.Gen.ReferenceIdeal.Read

noncomputable section

open scoped BigOperators

namespace Cert.Bilinear.Ref

open Cert.ReferenceIdeal Cert.ReferenceIdeal.Read Idealize.ShloMosaic Idealize.ShloMosaic.ValueIdx

/-- The first projection's stage at (p, q). -/
theorem v4_at (x0 : (⟨S128x2048, .f32⟩ : BufTy).Contents (Elt Ideal)) (x2 : (⟨S256x2048, .f32⟩ : BufTy).Contents (Elt Ideal)) (x3 : (⟨S256, .f32⟩ : BufTy).Contents (Elt Ideal)) (p : Fin 128) (q : Fin 256) :
    val_main_v4 (F := Ideal) x0 x2 x3 (ix2 p q) = Cert.Bilinear.projAt x0 x2 x3 p q := by
  rw [val_main_v4_apply, val_main_v1_apply, val_main_v3_apply, val_main_v2_apply]
  unfold Cert.Bilinear.projAt
  show (∑ k : Fin 2048, x0 (lidx_main_v1 (ix2 p q) k) * val_main_v0 (F := Ideal) x2 (ridx_main_v1 (ix2 p q) k))
      + x3 (idx_main_v2 (idx_main_v3 (ix2 p q))) = _
  congr 1
  · refine Finset.sum_congr rfl fun k _ => ?_
    rw [val_main_v0_apply]
    have e1 : lidx_main_v1 (ix2 p q) k = ix2 p k := funext fun a => match a with | ⟨0, _⟩ => rfl | ⟨1, _⟩ => rfl
    have e2 : idx_main_v0 (ridx_main_v1 (ix2 p q) k) = ix2 q k := funext fun a => match a with | ⟨0, _⟩ => rfl | ⟨1, _⟩ => rfl
    rw [e1, e2]
  · have e3 : idx_main_v2 (idx_main_v3 (ix2 p q)) = ix1 q := funext fun a => match a with | ⟨0, _⟩ => rfl
    rw [e3]

/-- The second projection's stage at (p, q). -/
theorem v9_at (x1 : (⟨S128x1024, .f32⟩ : BufTy).Contents (Elt Ideal)) (x4 : (⟨S256x1024, .f32⟩ : BufTy).Contents (Elt Ideal)) (x5 : (⟨S256, .f32⟩ : BufTy).Contents (Elt Ideal)) (p : Fin 128) (q : Fin 256) :
    val_main_v9 (F := Ideal) x1 x4 x5 (ix2 p q) = Cert.Bilinear.projAt x1 x4 x5 p q := by
  rw [val_main_v9_apply, val_main_v6_apply, val_main_v8_apply, val_main_v7_apply]
  unfold Cert.Bilinear.projAt
  show (∑ k : Fin 1024, x1 (lidx_main_v6 (ix2 p q) k) * val_main_v5 (F := Ideal) x4 (ridx_main_v6 (ix2 p q) k))
      + x5 (idx_main_v7 (idx_main_v8 (ix2 p q))) = _
  congr 1
  · refine Finset.sum_congr rfl fun k _ => ?_
    rw [val_main_v5_apply]
    have e1 : lidx_main_v6 (ix2 p q) k = ix2 p k := funext fun a => match a with | ⟨0, _⟩ => rfl | ⟨1, _⟩ => rfl
    have e2 : idx_main_v5 (ridx_main_v6 (ix2 p q) k) = ix2 q k := funext fun a => match a with | ⟨0, _⟩ => rfl | ⟨1, _⟩ => rfl
    rw [e1, e2]
  · have e3 : idx_main_v7 (idx_main_v8 (ix2 p q)) = ix1 q := funext fun a => match a with | ⟨0, _⟩ => rfl
    rw [e3]

/-- Column c of the flattened outer product reads the first projection at (p, c / 256). -/
theorem idxL (p : Fin 128) (n : Fin 1024) (c : Fin 65536) :
    idx_main_v10 (idx_main_v12 (idx_main_v15 (lidx_main_v17 (ix2 p n) c))) = ix2 p (Cert.Bilinear.colI c) := by
  have hp : p.val < 128 := p.isLt
  have hc : c.val < 65536 := c.isLt
  funext a
  refine Fin.ext ?_
  match a with
  | ⟨0, _⟩ => show (p.val * 65536 + c.val) / 65536 = p.val; omega
  | ⟨1, _⟩ => show (p.val * 65536 + c.val) / 256 % 256 = c.val / 256; omega

/-- Column c of the flattened outer product reads the second projection at (p, c % 256). -/
theorem idxR (p : Fin 128) (n : Fin 1024) (c : Fin 65536) :
    idx_main_v11 (idx_main_v13 (idx_main_v15 (lidx_main_v17 (ix2 p n) c))) = ix2 p (Cert.Bilinear.colJ c) := by
  have hp : p.val < 128 := p.isLt
  have hc : c.val < 65536 := c.isLt
  funext a
  refine Fin.ext ?_
  match a with
  | ⟨0, _⟩ => show (p.val * 65536 + c.val) / 65536 = p.val; omega
  | ⟨1, _⟩ => show (p.val * 65536 + c.val) % 256 = c.val % 256; omega

/-- The transposed output weight at (c, n) is the output weight at (n, c). -/
theorem idxW (p : Fin 128) (n : Fin 1024) (c : Fin 65536) :
    idx_main_v16 (ridx_main_v17 (ix2 p n) c) = ix2 n c :=
  funext fun a => match a with | ⟨0, _⟩ => rfl | ⟨1, _⟩ => rfl

/-- The broadcast output bias at (p, n) is the output bias at n. -/
theorem idxB (p : Fin 128) (n : Fin 1024) : idx_main_v18 (idx_main_v19 (ix2 p n)) = ix1 n :=
  funext fun a => match a with | ⟨0, _⟩ => rfl

/-- The reference's result is the layer. -/
theorem ref_eq_layer (x0 : (⟨S128x2048, .f32⟩ : BufTy).Contents (Elt Ideal)) (x1 : (⟨S128x1024, .f32⟩ : BufTy).Contents (Elt Ideal)) (x2 : (⟨S256x2048, .f32⟩ : BufTy).Contents (Elt Ideal)) (x3 : (⟨S256, .f32⟩ : BufTy).Contents (Elt Ideal))
    (x4 : (⟨S256x1024, .f32⟩ : BufTy).Contents (Elt Ideal)) (x5 : (⟨S256, .f32⟩ : BufTy).Contents (Elt Ideal)) (x6 : (⟨S1024x65536, .f32⟩ : BufTy).Contents (Elt Ideal)) (x7 : (⟨S1024, .f32⟩ : BufTy).Contents (Elt Ideal)) :
    val_main_v20 (F := Ideal) x0 x1 x2 x3 x4 x5 x6 x7 = Cert.Bilinear.layer x0 x1 x2 x3 x4 x5 x6 x7 := by
  funext i
  obtain ⟨p, n, rfl⟩ : ∃ (p : Fin 128) (n : Fin 1024), i = ix2 p n := ⟨i 0, i 1, eq_ix2 i⟩
  rw [val_main_v20_apply, val_main_v17_apply, val_main_v19_apply, val_main_v18_apply]
  show (∑ c : Fin 65536, val_main_v15 (F := Ideal) x0 x1 x2 x3 x4 x5 (lidx_main_v17 (ix2 p n) c) * val_main_v16 (F := Ideal) x6 (ridx_main_v17 (ix2 p n) c))
      + x7 (idx_main_v18 (idx_main_v19 (ix2 p n)))
    = Cert.Bilinear.outAt (Cert.Bilinear.proj x0 x2 x3) (Cert.Bilinear.proj x1 x4 x5) x6 x7 p n
  unfold Cert.Bilinear.outAt
  refine congrArg₂ (· + ·) (Finset.sum_congr rfl fun c _ => ?_) ?_
  · unfold Cert.Bilinear.term
    rw [val_main_v15_apply, val_main_v14_apply, val_main_v12_apply, val_main_v10_apply, val_main_v13_apply,
      val_main_v11_apply, val_main_v16_apply, idxL p n c, idxR p n c, idxW p n c, v4_at, v9_at]
    rfl
  · rw [idxB p n]

end Cert.Bilinear.Ref

end
-- ==== Proof.lean ====
/-
  A bilinear layer, out = flat(h1 ⊗ h2) · Woutᵀ + bout with h1 = x1·W1ᵀ + b1 and h2 = x2·W2ᵀ + b2, computed by two
  grid kernels, against the same layer written with whole-array operations.

  The kernel side. The first kernel has one grid point and writes the two 128 × 256 projections whole. The second runs
  over an 8 × 2 grid: for each of 8 tiles of 128 output columns it takes two steps over the halves of the 65536
  flattened columns c = i·256 + j, rebuilding the step's slice of the outer product flat[p, c] = h1[p, i] · h2[p, j]
  from the projections, adding the step's product with the weight block into an accumulator it keeps in a scratch
  buffer between the two steps (zeroed at the first), and storing accumulator plus bias at the last. So the result
  at (p, n) is ((0 + S₀) + S₁) + bout[n] with S_k the sum over the k-th half of flat[p, c] · Wout[n, c].

  The reference side is the whole sum Σ_c flat[p, c] · Wout[n, c] + bout[n]. On the extended reals the two agree
  because addition is commutative and associative; the products are the same expression on both sides, and the changes
  of float format the kernels make on the way into their matrix products are the identity at the exact instance. No
  finiteness of the inputs is used.

  The frames. Each kernel program is run as: the host's three reshapes of the bias vectors, the first region, the
  second region. Each region's body is executed once per kind of grid point; the second region's invariant names the
  accumulator's contents from one point to the next. The frame claims read each argument back through the boundaries'
  contents to the launch memory (nothing writes an argument). The reference's frame is its run with the result dropped.
  The idealization rewrote nothing, so `preserves` is trivial.
-/
import proofs.«105507_j35759897706654_1_alg».proof.Defs
import proofs.«105507_j35759897706654_1_alg».proof.Proof.Gen.Kernel
import proofs.«105507_j35759897706654_1_alg».proof.Proof.Gen.KernelIdeal
import proofs.«105507_j35759897706654_1_alg».proof.Proof.Gen.ReferenceIdeal
import proofs.«105507_j35759897706654_1_alg».proof.Proof.Gen.Pre_finite_inputs
import proofs.«105507_j35759897706654_1_alg».proof.Proof.Gen.ReferenceIdeal.Run
import proofs.«105507_j35759897706654_1_alg».proof.Proof.Gen.ReferenceIdeal.Read
import proofs.«105507_j35759897706654_1_alg».proof.Proof.K.Frame
import proofs.«105507_j35759897706654_1_alg».proof.Proof.KI.Frame
import proofs.«105507_j35759897706654_1_alg».proof.Proof.KI.Final
import proofs.«105507_j35759897706654_1_alg».proof.Proof.RefSpec

noncomputable section

namespace Cert.Proof

open Idealize.ShloMosaic Idealize.SL.Sem

/-- The word-level kernel program runs and leaves its arguments as launched. -/
theorem frame_k : Cert.frame_Kernel := fun m ρ _ => Cert.Kernel.Fr.frame m ρ

/-- The idealized kernel program runs and leaves its arguments as launched. -/
theorem frame_ki : Cert.frame_KernelIdeal := fun m ρ _ => Cert.KernelIdeal.Fr.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the layer of the arguments in their result buffers: the kernel's by its two
    regions' closed forms and the splitting of the column sum, the reference's by reading its operations one at a time. -/
theorem algebraic : Cert.algebraic_KernelIdeal_ReferenceIdeal := by
  intro m ρ m' ρ' _ hagree
  refine ⟨fun c => Cert.Bilinear.layer (Cert.KernelIdeal.Fr.aX1 m c) (Cert.KernelIdeal.Fr.aX2 m c) (Cert.KernelIdeal.Fr.aW1 m c)
      (Cert.KernelIdeal.Fr.aB1 m c) (Cert.KernelIdeal.Fr.aW2 m c) (Cert.KernelIdeal.Fr.aB2 m c) (Cert.KernelIdeal.Fr.aWo m c)
      (Cert.KernelIdeal.Fr.aBo m c), Cert.KernelIdeal.Fr.value_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v20_eq, Cert.Bilinear.Ref.ref_eq_layer, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
